-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x64 .f32) (main_arg6 : FVec F S64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S10000x128 : Shape := ⟨2, ![10000, 128]⟩
abbrev S10000x1 : Shape := ⟨2, ![10000, 1]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S10000x64 : Shape := ⟨2, ![10000, 64]⟩
abbrev S1x64 : Shape := ⟨2, ![1, 64]⟩

abbrev nBuf : Space → Nat
  | .hbm => 111
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x64, .f32⟩
  | .hbm, ⟨102, _⟩ => ⟨S1700000x1, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S5000x64, .f32⟩
  | .local _ .vmem, ⟨15, _⟩ => ⟨S5000x64, .f32⟩
  | .local _ .vmem, ⟨16, _⟩ => ⟨S10000x64, .f32⟩
  | .local _ .vmem, ⟨17, _⟩ => ⟨S10000x64, .f32⟩
  | .local _ .vmem, ⟨18, _⟩ => ⟨S10000x1, .f32⟩
  | .local _ .vmem, ⟨19, _⟩ => ⟨S10000x1, .f32⟩
  | .local _ .vmem, ⟨20, _⟩ => ⟨S10000x64, .f32⟩
  | .local _ .vmem, ⟨21, _⟩ => ⟨S10000x64, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | .local _ .vmem, ⟨27, _⟩ => ⟨S10000x64, .f32⟩
  | .local _ .vmem, ⟨28, _⟩ => ⟨S10000x64, .f32⟩
  | .local _ .vmem, ⟨29, _⟩ => ⟨S10000x1, .f32⟩
  | .local _ .vmem, ⟨30, _⟩ => ⟨S10000x1, .f32⟩
  | .local _ .vmem, ⟨31, _⟩ => ⟨S10000x64, .f32⟩
  | .local _ .vmem, ⟨32, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![170], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![170], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1700000_S1700000x1 : S1700000.ShapeCasts S1700000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S1700000x64.size a
  hwx3_0 : ∀ i : grid3.Coords, EltTy.bits .f32 = 32 ∨ (Rect.block (s := S1700000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S1700000x1.size a
  hwx3_1 : ∀ i : grid3.Coords, EltTy.bits .f32 = 32 ∨ (Rect.block (s := S1700000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S1700000x64.size a
  hwx3_2 : ∀ i : grid3.Coords, EltTy.bits .f32 = 32 ∨ (Rect.block (s := S1700000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S1700000x64.size a
  hwx5_0 : ∀ i : grid5.Coords, EltTy.bits .f32 = 32 ∨ (Rect.block (s := S1700000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S1700000x1.size a
  hwx5_1 : ∀ i : grid5.Coords, EltTy.bits .f32 = 32 ∨ (Rect.block (s := S1700000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S1700000x64.size a
  hwx5_2 : ∀ i : grid5.Coords, EltTy.bits .f32 = 32 ∨ (Rect.block (s := S1700000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v48) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v74) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S1700000x1, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S1700000x1, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x64, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S1700000x1, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x64, .f32⟩
  | .hbm, ⟨105, _⟩ => ⟨S1700000x64, .f32⟩
  | .hbm, ⟨106, _⟩ => ⟨S1700000x64, .f32⟩
  | .hbm, ⟨107, _⟩ => ⟨S_, .f32⟩
  | .hbm, ⟨108, _⟩ => ⟨S100000x64, .f32⟩
  | .hbm, ⟨109, _⟩ => ⟨S1700000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RunNamed.lean ====
/- The kernel program's run, with its two results named.

   The frame certificate of the kernel program follows the TensorCore's buffer contents from the launch memory through
   every boundary of @main (a stretch of host operations, or a pipelined region) to the last boundary's contents
   `Gen.W16 m ρ c`.  Here the run is stated with the two result buffers read at that last boundary: every weakly fair
   execution terminates without a fault, each of the two results holds what `Gen.W16 m ρ c` holds at its buffer, and each
   argument array is as launched. -/
import proofs.«155272_j27771258536172_1_alg».proof.Proof.Gen.KernelIdeal.Frame
import Idealize.ShloMosaic.Lib.Pipeline.Regions
import Idealize.ShloMosaic.Lib.Pipeline.Launch
import Idealize.ShloMosaic.Lib.Pipeline.Frame
import Idealize.SL.BI.BigOp

set_option maxRecDepth 16384

noncomputable section

namespace Cert.KernelIdeal.RunNamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the launch theorem's implicit arguments are found by unifying its conclusion with this one, which takes unfolding
-- plain definitions in a metavariable's type
set_option backward.isDefEq.respectTransparency.types false in
/-- Every weakly fair execution of @main on the TensorCores, from any memory `m` with zero counters, terminates with
    nothing faulting, and in every final state each unscoped buffer of core `c` holds the last boundary's contents
    `W16 m ρ c`.  Read at the two result buffers this gives the results (first two components); read at an argument
    array and walked back through the boundaries, none of which writes it, it gives the launch contents (the nine
    remaining components). -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
        r.2.mem ((c.tc : Thread nD τ).loc main_v64) = W16 m ρ c (Proc.devRef .tc main_v64)
      ∧ r.2.mem ((c.tc : Thread nD τ).loc main_v80) = W16 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v64 (by decide)),
       h c _ (mem_uc main_v80 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c)⟩)

end Cert.KernelIdeal.RunNamed

end
-- ==== Proof.Kept.lean ====
/- Buffers that nothing writes between two boundaries keep their contents.

   The kernel program's run passes sixteen boundaries `Gen.W1 … Gen.W16` from the launch contents `Gen.W0`: a boundary is
   the exit of a stretch of host operations (`StableHlo.after` of the stretch) or of a pipelined region (the region's
   arrays at what its write-backs leave, every other buffer as entered). A buffer is changed at a boundary only if the
   stretch has an operation whose result it is, or the region has it as an OUTPUT array. Each lemma below walks one
   buffer back from a later boundary to an earlier one (or to the launch memory), one step per boundary crossed:
     * a host stretch: the buffer is not the result of any of its operations (the results are listed, and told apart
       from the buffer as references);
     * a region none of whose arrays is the buffer: `Gen.WK_of_ne`;
     * a region that has the buffer as an INPUT array: the array at the region's exit is the array at its entry
       (`Pipeline.Dat.arrAt_in`), which is the entry contents (`Gen.A_eqK`).
   Stated at `F := Ideal`. -/
import proofs.«155272_j27771258536172_1_alg».proof.Proof.Gen.KernelIdeal.Frame
import Idealize.ShloMosaic.Lib.StableHlo.Run
import Idealize.ShloMosaic.Lib.Pipeline.FrameSuffix
import Idealize.ShloMosaic.PureOps.Ideal

set_option maxRecDepth 16384

noncomputable section

namespace Cert.KernelIdeal.Kept

open Idealize.ShloMosaic Idealize.ShloMosaic.TcCoe Idealize.SL.Sem
open Cert.KernelIdeal Cert.KernelIdeal.Gen

/-- One host stretch: `StableHlo.after ops V b = V b` when `b` is the result of no operation of `ops`. The goal is
    `W(k) m ρ c b = W(k-1) m ρ c b` with `W(k)` the `after` of one of the ten stretches; the stretch is unfolded to its
    literal list, each operation's results to a singleton, and `b` is told apart from each result as a reference. -/
macro "host_keep" : tactic => `(tactic|
  exact StableHlo.after_of_forall_not_mem _ _ (List.forall_iff_forall_mem.mp (by
    simp only [hostOps0, hostOps0_1, hostOps0_2, hostOps1, hostOps2, hostOps2_1, hostOps3, hostOps4, hostOps5, hostOps6,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## The arguments: no host operation has an argument as its result and no region has one as an output array -/

/-- The first product's left operand is still the launch array when the first region is entered: the three host
    stretches before it write none of the arguments. -/
theorem arg0_3 : W3 m ρ c (Proc.devRef .tc main_arg0) = m ((c : Thread nD τ).loc main_arg0) :=
  calc W3 m ρ c (Proc.devRef .tc main_arg0)
    _ = W2 m ρ c (Proc.devRef .tc main_arg0) := by host_keep
    _ = W1 m ρ c (Proc.devRef .tc main_arg0) := by host_keep
    _ = W0 m ρ c (Proc.devRef .tc main_arg0) := by host_keep
    _ = m ((c : Thread nD τ).loc main_arg0) := rfl

/-- The first weight matrix, likewise. -/
theorem arg3_3 : W3 m ρ c (Proc.devRef .tc main_arg3) = m ((c : Thread nD τ).loc main_arg3) :=
  calc W3 m ρ c (Proc.devRef .tc main_arg3)
    _ = W2 m ρ c (Proc.devRef .tc main_arg3) := by host_keep
    _ = W1 m ρ c (Proc.devRef .tc main_arg3) := by host_keep
    _ = W0 m ρ c (Proc.devRef .tc main_arg3) := by host_keep
    _ = m ((c : Thread nD τ).loc main_arg3) := rfl

/-- The edge list at launch. -/
theorem arg1_0 : W0 m ρ c (Proc.devRef .tc main_arg1) = m ((c : Thread nD τ).loc main_arg1) := rfl

/-- The edge weights at launch. -/
theorem arg2_0 : W0 m ρ c (Proc.devRef .tc main_arg2) = m ((c : Thread nD τ).loc main_arg2) := rfl

/-- The first bias row is the launch array after the first scaling region (it is read by the host stretch that
    follows). -/
theorem arg4_6 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keep
    _ = W3 m ρ c (Proc.devRef .tc main_arg4) := W4_of_ne m ρ c main_arg4 (by decide)
    _ = W2 m ρ c (Proc.devRef .tc main_arg4) := by host_keep
    _ = W1 m ρ c (Proc.devRef .tc main_arg4) := by host_keep
    _ = W0 m ρ c (Proc.devRef .tc main_arg4) := by host_keep
    _ = m ((c : Thread nD τ).loc main_arg4) := rfl

/-- The second weight matrix is the launch array when the second product's region is entered. -/
theorem arg5_8 : W8 m ρ c (Proc.devRef .tc main_arg5) = m ((c : Thread nD τ).loc main_arg5) :=
  calc W8 m ρ c (Proc.devRef .tc main_arg5)
    _ = W7 m ρ c (Proc.devRef .tc main_arg5) := by host_keep
    _ = W6 m ρ c (Proc.devRef .tc main_arg5) := by host_keep
    _ = W5 m ρ c (Proc.devRef .tc main_arg5) := W6_of_ne m ρ c main_arg5 (by decide)
    _ = W4 m ρ c (Proc.devRef .tc main_arg5) := by host_keep
    _ = W3 m ρ c (Proc.devRef .tc main_arg5) := W4_of_ne m ρ c main_arg5 (by decide)
    _ = W2 m ρ c (Proc.devRef .tc main_arg5) := by host_keep
    _ = W1 m ρ c (Proc.devRef .tc main_arg5) := by host_keep
    _ = W0 m ρ c (Proc.devRef .tc main_arg5) := by host_keep
    _ = m ((c : Thread nD τ).loc main_arg5) := rfl

/-- The second bias row is the launch array after the second scaling region. -/
theorem arg6_11 : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := by host_keep
    _ = W8 m ρ c (Proc.devRef .tc main_arg6) := W9_of_ne m ρ c main_arg6 (by decide)
    _ = W7 m ρ c (Proc.devRef .tc main_arg6) := by host_keep
    _ = W6 m ρ c (Proc.devRef .tc main_arg6) := by host_keep
    _ = W5 m ρ c (Proc.devRef .tc main_arg6) := W6_of_ne m ρ c main_arg6 (by decide)
    _ = W4 m ρ c (Proc.devRef .tc main_arg6) := by host_keep
    _ = W3 m ρ c (Proc.devRef .tc main_arg6) := W4_of_ne m ρ c main_arg6 (by decide)
    _ = W2 m ρ c (Proc.devRef .tc main_arg6) := by host_keep
    _ = W1 m ρ c (Proc.devRef .tc main_arg6) := by host_keep
    _ = W0 m ρ c (Proc.devRef .tc main_arg6) := by host_keep
    _ = m ((c : Thread nD τ).loc main_arg6) := rfl

/-- The third weight matrix is the launch array when the third product's region is entered. -/
theorem arg7_12 : W12 m ρ c (Proc.devRef .tc main_arg7) = m ((c : Thread nD τ).loc main_arg7) :=
  calc W12 m ρ c (Proc.devRef .tc main_arg7)
    _ = W11 m ρ c (Proc.devRef .tc main_arg7) := by host_keep
    _ = W10 m ρ c (Proc.devRef .tc main_arg7) := W11_of_ne m ρ c main_arg7 (by decide)
    _ = W9 m ρ c (Proc.devRef .tc main_arg7) := by host_keep
    _ = W8 m ρ c (Proc.devRef .tc main_arg7) := W9_of_ne m ρ c main_arg7 (by decide)
    _ = W7 m ρ c (Proc.devRef .tc main_arg7) := by host_keep
    _ = W6 m ρ c (Proc.devRef .tc main_arg7) := by host_keep
    _ = W5 m ρ c (Proc.devRef .tc main_arg7) := W6_of_ne m ρ c main_arg7 (by decide)
    _ = W4 m ρ c (Proc.devRef .tc main_arg7) := by host_keep
    _ = W3 m ρ c (Proc.devRef .tc main_arg7) := W4_of_ne m ρ c main_arg7 (by decide)
    _ = W2 m ρ c (Proc.devRef .tc main_arg7) := by host_keep
    _ = W1 m ρ c (Proc.devRef .tc main_arg7) := by host_keep
    _ = W0 m ρ c (Proc.devRef .tc main_arg7) := by host_keep
    _ = m ((c : Thread nD τ).loc main_arg7) := rfl

/-- The third bias row is the launch array after the third scaling region. -/
theorem arg8_15 : W15 m ρ c (Proc.devRef .tc main_arg8) = m ((c : Thread nD τ).loc main_arg8) :=
  calc W15 m ρ c (Proc.devRef .tc main_arg8)
    _ = W14 m ρ c (Proc.devRef .tc main_arg8) := W15_of_ne m ρ c main_arg8 (by decide)
    _ = W13 m ρ c (Proc.devRef .tc main_arg8) := by host_keep
    _ = W12 m ρ c (Proc.devRef .tc main_arg8) := W13_of_ne m ρ c main_arg8 (by decide)
    _ = W11 m ρ c (Proc.devRef .tc main_arg8) := by host_keep
    _ = W10 m ρ c (Proc.devRef .tc main_arg8) := W11_of_ne m ρ c main_arg8 (by decide)
    _ = W9 m ρ c (Proc.devRef .tc main_arg8) := by host_keep
    _ = W8 m ρ c (Proc.devRef .tc main_arg8) := W9_of_ne m ρ c main_arg8 (by decide)
    _ = W7 m ρ c (Proc.devRef .tc main_arg8) := by host_keep
    _ = W6 m ρ c (Proc.devRef .tc main_arg8) := by host_keep
    _ = W5 m ρ c (Proc.devRef .tc main_arg8) := W6_of_ne m ρ c main_arg8 (by decide)
    _ = W4 m ρ c (Proc.devRef .tc main_arg8) := by host_keep
    _ = W3 m ρ c (Proc.devRef .tc main_arg8) := W4_of_ne m ρ c main_arg8 (by decide)
    _ = W2 m ρ c (Proc.devRef .tc main_arg8) := by host_keep
    _ = W1 m ρ c (Proc.devRef .tc main_arg8) := by host_keep
    _ = W0 m ρ c (Proc.devRef .tc main_arg8) := by host_keep
    _ = m ((c : Thread nD τ).loc main_arg8) := rfl

/-! ## The gather's index vector `main_v3`: written before the first region, read by the host stretch after each
    product's region -/

/-- After the first product. -/
theorem row_4 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- After the second product. -/
theorem row_9 : W9 m ρ c (Proc.devRef .tc main_v3) = W3 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := by host_keep
    _ = W6 m ρ c (Proc.devRef .tc main_v3) := by host_keep
    _ = W5 m ρ c (Proc.devRef .tc main_v3) := W6_of_ne m ρ c main_v3 (by decide)
    _ = W4 m ρ c (Proc.devRef .tc main_v3) := by host_keep
    _ = W3 m ρ c (Proc.devRef .tc main_v3) := W4_of_ne m ρ c main_v3 (by decide)

/-- After the third product: back to the second product's exit, then as there. -/
theorem row_13 : W13 m ρ c (Proc.devRef .tc main_v3) = W3 m ρ c (Proc.devRef .tc main_v3) :=
  calc W13 m ρ c (Proc.devRef .tc main_v3)
    _ = W12 m ρ c (Proc.devRef .tc main_v3) := W13_of_ne m ρ c main_v3 (by decide)
    _ = W11 m ρ c (Proc.devRef .tc main_v3) := by host_keep
    _ = W10 m ρ c (Proc.devRef .tc main_v3) := W11_of_ne m ρ c main_v3 (by decide)
    _ = W9 m ρ c (Proc.devRef .tc main_v3) := by host_keep
    _ = W3 m ρ c (Proc.devRef .tc main_v3) := row_9 m ρ c

/-! ## The edge norms `main_v31`: written by the last host stretch before the first region, reshaped by the host
    stretch after each product's region -/

/-- After the first product. -/
theorem norm_4 : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- After the second product. -/
theorem norm_9 : W9 m ρ c (Proc.devRef .tc main_v31) = W3 m ρ c (Proc.devRef .tc main_v31) :=
  calc W9 m ρ c (Proc.devRef .tc main_v31)
    _ = W8 m ρ c (Proc.devRef .tc main_v31) := W9_of_ne m ρ c main_v31 (by decide)
    _ = W7 m ρ c (Proc.devRef .tc main_v31) := by host_keep
    _ = W6 m ρ c (Proc.devRef .tc main_v31) := by host_keep
    _ = W5 m ρ c (Proc.devRef .tc main_v31) := W6_of_ne m ρ c main_v31 (by decide)
    _ = W4 m ρ c (Proc.devRef .tc main_v31) := by host_keep
    _ = W3 m ρ c (Proc.devRef .tc main_v31) := W4_of_ne m ρ c main_v31 (by decide)

/-- After the third product: back to the second product's exit, then as there. -/
theorem norm_13 : W13 m ρ c (Proc.devRef .tc main_v31) = W3 m ρ c (Proc.devRef .tc main_v31) :=
  calc W13 m ρ c (Proc.devRef .tc main_v31)
    _ = W12 m ρ c (Proc.devRef .tc main_v31) := W13_of_ne m ρ c main_v31 (by decide)
    _ = W11 m ρ c (Proc.devRef .tc main_v31) := by host_keep
    _ = W10 m ρ c (Proc.devRef .tc main_v31) := W11_of_ne m ρ c main_v31 (by decide)
    _ = W9 m ρ c (Proc.devRef .tc main_v31) := by host_keep
    _ = W3 m ρ c (Proc.devRef .tc main_v31) := norm_9 m ρ c

/-! ## The scatter's index vector `main_v6`: written before the first region, read by the host stretch after each
    scaling region -/

/-- After the first scaling region. -/
theorem col_6 : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keep
    _ = W3 m ρ c (Proc.devRef .tc main_v6) := W4_of_ne m ρ c main_v6 (by decide)

/-- After the second scaling region: back to the first one's exit, then as there. -/
theorem col_11 : W11 m ρ c (Proc.devRef .tc main_v6) = W3 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := by host_keep
    _ = W8 m ρ c (Proc.devRef .tc main_v6) := W9_of_ne m ρ c main_v6 (by decide)
    _ = W7 m ρ c (Proc.devRef .tc main_v6) := by host_keep
    _ = W6 m ρ c (Proc.devRef .tc main_v6) := by host_keep
    _ = W3 m ρ c (Proc.devRef .tc main_v6) := col_6 m ρ c

/-- After the third scaling region: back to the second one's exit, then as there. -/
theorem col_15 : W15 m ρ c (Proc.devRef .tc main_v6) = W3 m ρ c (Proc.devRef .tc main_v6) :=
  calc W15 m ρ c (Proc.devRef .tc main_v6)
    _ = W14 m ρ c (Proc.devRef .tc main_v6) := W15_of_ne m ρ c main_v6 (by decide)
    _ = W13 m ρ c (Proc.devRef .tc main_v6) := by host_keep
    _ = W12 m ρ c (Proc.devRef .tc main_v6) := W13_of_ne m ρ c main_v6 (by decide)
    _ = W11 m ρ c (Proc.devRef .tc main_v6) := by host_keep
    _ = W3 m ρ c (Proc.devRef .tc main_v6) := col_11 m ρ c

/-! ## The hidden layer and the first result -/

/-- The hidden layer `main_v48` (the relu's result) is the left operand of BOTH later products: at the third
    product's entry it still holds what it held at the second product's entry. The second product's region reads it
    through its input window 0 and leaves an input array as entered; the stretches and the scaling region between
    do not touch it. -/
theorem hidden_12 : W12 m ρ c (Proc.devRef .tc main_v48) = W8 m ρ c (Proc.devRef .tc main_v48) :=
  calc W12 m ρ c (Proc.devRef .tc main_v48)
    _ = W11 m ρ c (Proc.devRef .tc main_v48) := by host_keep
    _ = W10 m ρ c (Proc.devRef .tc main_v48) := W11_of_ne m ρ c main_v48 (by decide)
    _ = W9 m ρ c (Proc.devRef .tc main_v48) := by host_keep
    _ = W8 m ρ c (Proc.devRef .tc main_v48) := (W9_arr m ρ c 0).trans (((dat2 (V8 m ρ) c).arrAt_in 0 rfl _).trans (A_eq2 (V8 m ρ) c 0))

/-- The first result `main_v64` is written by the host stretch before the third product's region and by nothing
    after it. -/
theorem mu_16 : W16 m ρ c (Proc.devRef .tc main_v64) = W12 m ρ c (Proc.devRef .tc main_v64) :=
  calc W16 m ρ c (Proc.devRef .tc main_v64)
    _ = W15 m ρ c (Proc.devRef .tc main_v64) := by host_keep
    _ = W14 m ρ c (Proc.devRef .tc main_v64) := W15_of_ne m ρ c main_v64 (by decide)
    _ = W13 m ρ c (Proc.devRef .tc main_v64) := by host_keep
    _ = W12 m ρ c (Proc.devRef .tc main_v64) := W13_of_ne m ρ c main_v64 (by decide)

end Cert.KernelIdeal.Kept

end
-- ==== Proof.LibPlainMatmul.lean ====
/-
  A matrix product with plain dimension numbers, read at an entry, at the exact reading of floats as extended reals.

  `tpu.matmul` of an m×k by a k×n matrix (contracting the left operand's axis 1 with the right operand's axis 0, no
  batch axes) accumulated into the zero splat is, at entry (a, b), the sum over c of A(a, c)·B(c, b): the accumulator
  contributes `0 + ·` and nothing else, so the equation holds at the infinities too. Beside it, the one float word a
  bias row of ones needs: the f32 pattern of 1.0 reads as the number 1.
-/
import Idealize.ShloMosaic.Lib.StackMember
import Idealize.ShloMosaic.PureOps.IdealRules

noncomputable section

open scoped BigOperators

namespace Idealize.ShloMosaic.PlainMatmul

open Idealize.ShloMosaic Idealize.ShloMosaic.ValueIdx

/-- The product of an m×k by a k×n matrix accumulated into the zero splat, at entry (a, b), is the sum over the
    contracted coordinate c of A(a, c)·B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The f32 word of 1.0 denotes the number 1. -/
theorem ofBits_one_f32 : Ideal.ofBits .f32 0x3F800000#32 = 1 :=
  IdealRules.sign_bit.ideal_onePat .f32

end Idealize.ShloMosaic.PlainMatmul

end
-- ==== Proof.LibRowBlockProduct.lean ====
/-
  A block of rows of a matrix product, at the exact reading of floats as extended reals.

  Let X be an M×K matrix, W a K×N matrix, and let xb be a B×K matrix whose row p is row r of X. Then row p of the
  product xb·W, accumulated into the zero splat as a kernel's matrix unit does, is row r of the whole product X·W as
  the host's `dot_general` computes it: both are the sum over the contracted coordinate c of X(r, c)·W(c, b). The
  element formats of the operands play no part (a change of float format is the identity on extended reals), so the
  block may carry narrower formats than the whole matrices.
-/
import proofs.«155272_j27771258536172_1_alg».proof.Proof.LibPlainMatmul

noncomputable section

open scoped BigOperators

namespace Idealize.ShloMosaic.RowBlockProduct

open Idealize.ShloMosaic Idealize.ShloMosaic.ValueIdx

/-- Row `p` of `xb·wb` into the zero splat is row `r` of `X·W`, when row `p` of `xb` is row `r` of `X` and
    column `b` of `wb` is column `b` of `W`. -/
theorem matmul_rows_eq_dotGeneral {M K N B : Nat} {φ₁ φ₂ ψ₁ ψ₂ : FTy} (prec prec' : Option ContractPrecision)
    (X : FVec Ideal ⟨2, ![M, K]⟩ ψ₁) (W : FVec Ideal ⟨2, ![K, N]⟩ ψ₂)
    (xb : FVec Ideal ⟨2, ![B, K]⟩ φ₁) (wb : FVec Ideal ⟨2, ![K, N]⟩ φ₂)
    (p : Fin B) (r : Fin M) (b : Fin N)
    (hx : ∀ c : Fin K, (xb (ix2 p c) : EReal) = X (ix2 r c))
    (hw : ∀ c : Fin K, (wb (ix2 c b) : EReal) = W (ix2 c b)) :
    (matmul (DotDims.plain B K N) prec xb wb (constant ⟨2, ![B, N]⟩ .f32 0x00000000#32) (ix2 p b) : EReal)
      = Host.dotGeneral (DotDims.plain M K N) prec' X W (ix2 r b) := by
  rw [PlainMatmul.matmul_plain_zero_apply, StackMember.dotGeneral_plain_apply]
  exact Finset.sum_congr rfl fun c _ => by rw [hx c, hw c]

end Idealize.ShloMosaic.RowBlockProduct

end
-- ==== Proof.RegionProduct.lean ====
/-
  The three row-blocked matrix products of the kernel program, each read as one whole-array product.

  A product region takes an array X of shape [100000,128] and a weight W of shape [128,n] (n = 128 in the first
  layer, n = 64 in the two heads of the second) and fills an array of shape [100000,n]. Its grid has 20 points;
  point t takes rows 5000·t … 5000·t + 4999 of X and the whole of W, and writes rows 5000·t … 5000·t + 4999 of the
  output. Entry (p, q) of what point t writes is the sum over k of X(5000·t + p, k)·W(k, q), which is entry
  (5000·t + p, q) of X·W; the 20 blocks of rows are disjoint and cover the 100000 rows. So the region leaves X·W,
  for any contents X, W the arrays hold when the region is entered.

  Per region: the block indices of the three windows at a grid point (`block_indexK`, `block_ontoK`), an entry of
  the body's block product as an entry of the whole product (`block_productK`), what a point writes back as its
  block of X·W (`flushedK`), the rows each block covers (`mem_blockK`, `rows_coveredK`), and the whole array
  (`productK`).
-/
import proofs.«155272_j27771258536172_1_alg».proof.Proof.Gen.KernelIdeal.Frame
import proofs.«155272_j27771258536172_1_alg».proof.Proof.Gen.KernelIdeal.Points
import proofs.«155272_j27771258536172_1_alg».proof.Proof.Gen.KernelIdeal.Skeleton
import proofs.«155272_j27771258536172_1_alg».proof.Proof.Gen.ReferenceIdeal
import proofs.«155272_j27771258536172_1_alg».proof.Proof.LibRowBlockProduct
import Idealize.ShloMosaic.Lib.Pipeline.Value
import Idealize.ShloMosaic.Lib.ValueIdx
import Idealize.ShloMosaic.Signature.View
import Idealize.ShloMosaic.Shape
import Idealize.ShloMosaic.PureOps.Ideal

noncomputable section

namespace Cert.KernelIdeal.RegionProduct

open Cert.KernelIdeal Cert.KernelIdeal.Gen Idealize.ShloMosaic Idealize.ShloMosaic.TcCoe Idealize.SL.Sem
open Idealize.ShloMosaic.Pipeline (Dat)
open Idealize.ShloMosaic.ValueIdx

-- the contents of the TensorCore's buffers when a region is entered: any contents
variable (V : (c : Dev nD) → (b : Ref sig .tc) → Buf (Elt Ideal) ((c : Thread nD τ).loc b))

/-- The two zero offsets of a whole-block access, as a constant function. -/
theorem zero_offsets : (![0, 0] : Fin 2 → Nat) = fun _ => 0 := funext fun a => by fin_cases a <;> rfl

/-! ## Region 0: the product of a [100000,128] matrix by a [128,128] matrix, in 20 blocks of 5000 rows -/

/-- At grid point t the left operand's block and the output's block are the same block of rows, the weight is
    taken whole, and neither moves along the columns. -/
theorem block_index0 : ∀ t : Fin cfg0.N, win0_0.index t 0 = win0_2.index t 0 ∧ win0_0.index t 1 = 0
    ∧ win0_1.index t 0 = 0 ∧ win0_1.index t 1 = 0 ∧ win0_2.index t 1 = 0 ∧ win0_2.index t 0 ≤ 19 :=
  (by decide +kernel : ∀ t : Fin grid0.N, _)

/-- Each of the 20 blocks of rows is some grid point's. -/
theorem block_onto0 : ∀ q : Fin 20, ∃ t : Fin cfg0.N, win0_2.index t = ![q.val, 0] :=
  (by decide +kernel : ∀ q : Fin 20, ∃ t : Fin grid0.N, win0_2.index t = ![q.val, 0])

/-- Entry (p, q) of the body's product of a block x whose row p is row r of X, by a block w whose column q is
    column q of W, is entry (r, q) of X·W: both are the sum over k of X(r, k)·W(k, q). -/
theorem block_product0 (X : FVec Ideal ⟨2, ![100000, 128]⟩ .f32) (W : FVec Ideal ⟨2, ![128, 128]⟩ .f32)
    (x : Vec Ideal S5000x128 .f32) (w : Vec Ideal S128x128 .f32) (p : Fin 5000) (r : Fin 100000) (q : Fin 128)
    (hx : ∀ k : Fin 128, x (ix2 p k) = X (ix2 r k)) (hw : ∀ k : Fin 128, w (ix2 k q) = W (ix2 k q)) :
    k0_pay1 x w (ix2 p q)
      = Host.dotGeneral (F := Ideal) (φ₁ := .f32) (φ₂ := .f32) Cert.ReferenceIdeal.dot_S100000x128_S128x128_S100000x128_1_0_0_1_n_n none X W (ix2 r q) := by
  unfold k0_pay1
  exact RowBlockProduct.matmul_rows_eq_dotGeneral (M := 100000) (K := 128) (N := 128) (B := 5000) none none X W
    (truncf .bf16 x bitsLt_bf16_f32) (truncf .bf16 w bitsLt_bf16_f32) p r q hx hw

/-- What grid point t writes back is its block of rows of the whole product. -/
theorem flushed0 (c : Dev nD) (t : Fin cfg0.N) :
    (dat0 V c).flushed 2 t = ((cfg0.win 2).blk t).view.read (Elt Ideal)
      (Host.dotGeneral (F := Ideal) (φ₁ := .f32) (φ₂ := .f32) Cert.ReferenceIdeal.dot_S100000x128_S128x128_S100000x128_1_0_0_1_n_n none
        (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_index0 t
  funext j
  obtain ⟨p, q, rfl⟩ : ∃ (p : Fin 5000) (q : Fin 128), j = ix2 p q := ⟨j 0, j 1, eq_ix2 j⟩
  have hrow : 5000 * win0_2.index t 0 + p.val < 100000 := by have := p.isLt; omega
  have hout : ((cfg0.win 2).blk t).view.emb (ix2 p q) = ix2 (⟨5000 * win0_2.index t 0 + p.val, hrow⟩ : Fin 100000) q := by
    funext a; apply Fin.ext
    match a with
    | ⟨0, _⟩ => show win0_2.index t (0 : Fin 2) * 5000 + 1 * p.val = 5000 * win0_2.index t 0 + p.val; omega
    | ⟨1, _⟩ => show win0_2.index t (1 : Fin 2) * 128 + 1 * q.val = q.val; omega
  show k0_pay1 (iblk0 V c 0 t) (iblk0 V c 1 t) (ix2 p q)
    = Host.dotGeneral (F := Ideal) (φ₁ := .f32) (φ₂ := .f32) Cert.ReferenceIdeal.dot_S100000x128_S128x128_S100000x128_1_0_0_1_n_n none
        (V c main_arg0) (V c main_arg3) (((cfg0.win 2).blk t).view.emb (ix2 p q))
  rw [hout]
  refine block_product0 (V c main_arg0) (V c main_arg3) (iblk0 V c 0 t) (iblk0 V c 1 t) p _ q (fun k => ?_) (fun k => ?_)
  · show V c main_arg0 (((cfg0.win 0).blk t).view.emb (ix2 p k)) = V c main_arg0 (ix2 (⟨5000 * win0_2.index t 0 + p.val, hrow⟩ : Fin 100000) k)
    refine congrArg _ ?_
    funext a; apply Fin.ext
    match a with
    | ⟨0, _⟩ => show win0_0.index t (0 : Fin 2) * 5000 + 1 * p.val = 5000 * win0_2.index t 0 + p.val; omega
    | ⟨1, _⟩ => show win0_0.index t (1 : Fin 2) * 128 + 1 * k.val = k.val; omega
  · show V c main_arg3 (((cfg0.win 1).blk t).view.emb (ix2 k q)) = V c main_arg3 (ix2 k q)
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An index of the output array is in grid point t's block iff each coordinate is in the block's range. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- The 20 blocks of 5000 rows cover the 100000 rows: row r is in block r / 5000. -/
theorem rows_covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0 leaves in its output array the product of the two arrays it was entered with. -/
theorem product0 (c : Dev nD) :
    (dat0 V c).arrAt 2 cfg0.N = Host.dotGeneral (F := Ideal) (φ₁ := .f32) (φ₂ := .f32) Cert.ReferenceIdeal.dot_S100000x128_S128x128_S100000x128_1_0_0_1_n_n none
      (V c main_arg0) (V c main_arg3) :=
  (dat0 V c).arrAt_eq_of_cover 2 _ (fun t _ => flushed0 V c t) rows_covered0

/-! ## Region 2: the product of a [100000,128] matrix by a [128,64] matrix, in 20 blocks of 5000 rows -/

/-- At grid point t the left operand's block and the output's block are the same block of rows, the weight is
    taken whole, and neither moves along the columns. -/
theorem block_index2 : ∀ t : Fin cfg2.N, win2_0.index t 0 = win2_2.index t 0 ∧ win2_0.index t 1 = 0
    ∧ win2_1.index t 0 = 0 ∧ win2_1.index t 1 = 0 ∧ win2_2.index t 1 = 0 ∧ win2_2.index t 0 ≤ 19 :=
  (by decide +kernel : ∀ t : Fin grid2.N, _)

/-- Each of the 20 blocks of rows is some grid point's. -/
theorem block_onto2 : ∀ q : Fin 20, ∃ t : Fin cfg2.N, win2_2.index t = ![q.val, 0] :=
  (by decide +kernel : ∀ q : Fin 20, ∃ t : Fin grid2.N, win2_2.index t = ![q.val, 0])

/-- Entry (p, q) of the body's product of a block x whose row p is row r of X, by a block w whose column q is
    column q of W, is entry (r, q) of X·W: the body's reshape of the block to its own shape changes nothing, and both are the sum over k of X(r, k)·W(k, q). -/
theorem block_product2 (X : FVec Ideal ⟨2, ![100000, 128]⟩ .f32) (W : FVec Ideal ⟨2, ![128, 64]⟩ .f32)
    (x : Vec Ideal S5000x128 .f32) (w : Vec Ideal S128x64 .f32) (p : Fin 5000) (r : Fin 100000) (q : Fin 64)
    (hx : ∀ k : Fin 128, x (ix2 p k) = X (ix2 r k)) (hw : ∀ k : Fin 128, w (ix2 k q) = W (ix2 k q)) :
    k2_pay1 x w (ix2 p q)
      = Host.dotGeneral (F := Ideal) (φ₁ := .f32) (φ₂ := .f32) Cert.ReferenceIdeal.dot_S100000x128_S128x64_S100000x64_1_0_0_1_n_n none X W (ix2 r q) := by
  unfold k2_pay1
  exact RowBlockProduct.matmul_rows_eq_dotGeneral (M := 100000) (K := 128) (N := 64) (B := 5000) none none X W
    (truncf .bf16 (shapeCast S5000x128 x shapeCasts_S5000x128_S5000x128) bitsLt_bf16_f32) (truncf .bf16 w bitsLt_bf16_f32) p r q (fun k => by rw [shapeCast_self]; exact hx k) hw

/-- What grid point t writes back is its block of rows of the whole product. -/
theorem flushed2 (c : Dev nD) (t : Fin cfg2.N) :
    (dat2 V c).flushed 2 t = ((cfg2.win 2).blk t).view.read (Elt Ideal)
      (Host.dotGeneral (F := Ideal) (φ₁ := .f32) (φ₂ := .f32) Cert.ReferenceIdeal.dot_S100000x128_S128x64_S100000x64_1_0_0_1_n_n none
        (V c main_v48) (V c main_arg5)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x64) zero_offsets]
  obtain ⟨e0, e1, e2, e3, e4, e5⟩ := block_index2 t
  funext j
  obtain ⟨p, q, rfl⟩ : ∃ (p : Fin 5000) (q : Fin 64), j = ix2 p q := ⟨j 0, j 1, eq_ix2 j⟩
  have hrow : 5000 * win2_2.index t 0 + p.val < 100000 := by have := p.isLt; omega
  have hout : ((cfg2.win 2).blk t).view.emb (ix2 p q) = ix2 (⟨5000 * win2_2.index t 0 + p.val, hrow⟩ : Fin 100000) q := by
    funext a; apply Fin.ext
    match a with
    | ⟨0, _⟩ => show win2_2.index t (0 : Fin 2) * 5000 + 1 * p.val = 5000 * win2_2.index t 0 + p.val; omega
    | ⟨1, _⟩ => show win2_2.index t (1 : Fin 2) * 64 + 1 * q.val = q.val; omega
  show k2_pay1 (iblk2 V c 0 t) (iblk2 V c 1 t) (ix2 p q)
    = Host.dotGeneral (F := Ideal) (φ₁ := .f32) (φ₂ := .f32) Cert.ReferenceIdeal.dot_S100000x128_S128x64_S100000x64_1_0_0_1_n_n none
        (V c main_v48) (V c main_arg5) (((cfg2.win 2).blk t).view.emb (ix2 p q))
  rw [hout]
  refine block_product2 (V c main_v48) (V c main_arg5) (iblk2 V c 0 t) (iblk2 V c 1 t) p _ q (fun k => ?_) (fun k => ?_)
  · show V c main_v48 (((cfg2.win 0).blk t).view.emb (ix2 p k)) = V c main_v48 (ix2 (⟨5000 * win2_2.index t 0 + p.val, hrow⟩ : Fin 100000) k)
    refine congrArg _ ?_
    funext a; apply Fin.ext
    match a with
    | ⟨0, _⟩ => show win2_0.index t (0 : Fin 2) * 5000 + 1 * p.val = 5000 * win2_2.index t 0 + p.val; omega
    | ⟨1, _⟩ => show win2_0.index t (1 : Fin 2) * 128 + 1 * k.val = k.val; omega
  · show V c main_arg5 (((cfg2.win 1).blk t).view.emb (ix2 k q)) = V c main_arg5 (ix2 k q)
    refine congrArg _ ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega

/-- An index of the output array is in grid point t's block iff each coordinate is in the block's range. -/
theorem mem_block2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v49).slice (win2_2.rect t)).set ↔ _
  rw [View.set_slice_whole, Rect.mem_set_unit]
  exact Iff.rfl

/-- The 20 blocks of 5000 rows cover the 100000 rows: row r is in block r / 5000. -/
theorem rows_covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := block_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- Region 2 leaves in its output array the product of the two arrays it was entered with. -/
theorem product2 (c : Dev nD) :
    (dat2 V c).arrAt 2 cfg2.N = Host.dotGeneral (F := Ideal) (φ₁ := .f32) (φ₂ := .f32) Cert.ReferenceIdeal.dot_S100000x128_S128x64_S100000x64_1_0_0_1_n_n none
      (V c main_v48) (V c main_arg5) :=
  (dat2 V c).arrAt_eq_of_cover 2 _ (fun t _ => flushed2 V c t) rows_covered2

/-! ## Region 4: the product of a [100000,128] matrix by a [128,64] matrix, in 20 blocks of 5000 rows -/

/-- At grid point t the left operand's block and the output's block are the same block of rows, the weight is
    taken whole, and neither moves along the columns. -/
theorem block_index4 : ∀ t : Fin cfg4.N, win4_0.index t 0 = win4_2.index t 0 ∧ win4_0.index t 1 = 0
    ∧ win4_1.index t 0 = 0 ∧ win4_1.index t 1 = 0 ∧ win4_2.index t 1 = 0 ∧ win4_2.index t 0 ≤ 19 :=
  (by decide +kernel : ∀ t : Fin grid4.N, _)

/-- Each of the 20 blocks of rows is some grid point's. -/
theorem block_onto4 : ∀ q : Fin 20, ∃ t : Fin cfg4.N, win4_2.index t = ![q.val, 0] :=
  (by decide +kernel : ∀ q : Fin 20, ∃ t : Fin grid4.N, win4_2.index t = ![q.val, 0])

/-- Entry (p, q) of the body's product of a block x whose row p is row r of X, by a block w whose column q is
    column q of W, is entry (r, q) of X·W: the body's reshape of the block to its own shape changes nothing, and both are the sum over k of X(r, k)·W(k, q). -/
theorem block_product4 (X : FVec Ideal ⟨2, ![100000, 128]⟩ .f32) (W : FVec Ideal ⟨2, ![128, 64]⟩ .f32)
    (x : Vec Ideal S5000x128 .f32) (w : Vec Ideal S128x64 .f32) (p : Fin 5000) (r : Fin 100000) (q : Fin 64)
    (hx : ∀ k : Fin 128, x (ix2 p k) = X (ix2 r k)) (hw : ∀ k : Fin 128, w (ix2 k q) = W (ix2 k q)) :
    k4_pay1 x w (ix2 p q)
      = Host.dotGeneral (F := Ideal) (φ₁ := .f32) (φ₂ := .f32) Cert.ReferenceIdeal.dot_S100000x128_S128x64_S100000x64_1_0_0_1_n_n none X W (ix2 r q) := by
  unfold k4_pay1
  exact RowBlockProduct.matmul_rows_eq_dotGeneral (M := 100000) (K := 128) (N := 64) (B := 5000) none none X W
    (truncf .bf16 (shapeCast S5000x128 x shapeCasts_S5000x128_S5000x128) bitsLt_bf16_f32) (truncf .bf16 w bitsLt_bf16_f32) p r q (fun k => by rw [shapeCast_self]; exact hx k) hw

/-- What grid point t writes back is its block of rows of the whole product. -/
theorem flushed4 (c : Dev nD) (t : Fin cfg4.N) :
    (dat4 V c).flushed 2 t = ((cfg4.win 2).blk t).view.read (Elt Ideal)
      (Host.dotGeneral (F := Ideal) (φ₁ := .f32) (φ₂ := .f32) Cert.ReferenceIdeal.dot_S100000x128_S128x64_S100000x64_1_0_0_1_n_n none
        (V c main_v48) (V c main_arg7)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x64) zero_offsets]
  obtain ⟨e0, e1, e2, e3, e4, e5⟩ := block_index4 t
  funext j
  obtain ⟨p, q, rfl⟩ : ∃ (p : Fin 5000) (q : Fin 64), j = ix2 p q := ⟨j 0, j 1, eq_ix2 j⟩
  have hrow : 5000 * win4_2.index t 0 + p.val < 100000 := by have := p.isLt; omega
  have hout : ((cfg4.win 2).blk t).view.emb (ix2 p q) = ix2 (⟨5000 * win4_2.index t 0 + p.val, hrow⟩ : Fin 100000) q := by
    funext a; apply Fin.ext
    match a with
    | ⟨0, _⟩ => show win4_2.index t (0 : Fin 2) * 5000 + 1 * p.val = 5000 * win4_2.index t 0 + p.val; omega
    | ⟨1, _⟩ => show win4_2.index t (1 : Fin 2) * 64 + 1 * q.val = q.val; omega
  show k4_pay1 (iblk4 V c 0 t) (iblk4 V c 1 t) (ix2 p q)
    = Host.dotGeneral (F := Ideal) (φ₁ := .f32) (φ₂ := .f32) Cert.ReferenceIdeal.dot_S100000x128_S128x64_S100000x64_1_0_0_1_n_n none
        (V c main_v48) (V c main_arg7) (((cfg4.win 2).blk t).view.emb (ix2 p q))
  rw [hout]
  refine block_product4 (V c main_v48) (V c main_arg7) (iblk4 V c 0 t) (iblk4 V c 1 t) p _ q (fun k => ?_) (fun k => ?_)
  · show V c main_v48 (((cfg4.win 0).blk t).view.emb (ix2 p k)) = V c main_v48 (ix2 (⟨5000 * win4_2.index t 0 + p.val, hrow⟩ : Fin 100000) k)
    refine congrArg _ ?_
    funext a; apply Fin.ext
    match a with
    | ⟨0, _⟩ => show win4_0.index t (0 : Fin 2) * 5000 + 1 * p.val = 5000 * win4_2.index t 0 + p.val; omega
    | ⟨1, _⟩ => show win4_0.index t (1 : Fin 2) * 128 + 1 * k.val = k.val; omega
  · show V c main_arg7 (((cfg4.win 1).blk t).view.emb (ix2 k q)) = V c main_arg7 (ix2 k q)
    refine congrArg _ ?_
    funext a; apply Fin.ext
    match a with
    | ⟨0, _⟩ => show win4_1.index t (0 : Fin 2) * 128 + 1 * k.val = k.val; omega
    | ⟨1, _⟩ => show win4_1.index t (1 : Fin 2) * 64 + 1 * q.val = q.val; omega

/-- An index of the output array is in grid point t's block iff each coordinate is in the block's range. -/
theorem mem_block4 (t : Fin cfg4.N) (i : S100000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v65).slice (win4_2.rect t)).set ↔ _
  rw [View.set_slice_whole, Rect.mem_set_unit]
  exact Iff.rfl

/-- The 20 blocks of 5000 rows cover the 100000 rows: row r is in block r / 5000. -/
theorem rows_covered4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := block_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- Region 4 leaves in its output array the product of the two arrays it was entered with. -/
theorem product4 (c : Dev nD) :
    (dat4 V c).arrAt 2 cfg4.N = Host.dotGeneral (F := Ideal) (φ₁ := .f32) (φ₂ := .f32) Cert.ReferenceIdeal.dot_S100000x128_S128x64_S100000x64_1_0_0_1_n_n none
      (V c main_v48) (V c main_arg7) :=
  (dat4 V c).arrAt_eq_of_cover 2 _ (fun t _ => flushed4 V c t) rows_covered4

end Cert.KernelIdeal.RegionProduct

end
-- ==== Proof.RegionScale.lean ====
import proofs.«155272_j27771258536172_1_alg».proof.Proof.Gen.KernelIdeal.Frame
import proofs.«155272_j27771258536172_1_alg».proof.Proof.Gen.ReferenceIdeal
import Idealize.ShloMosaic.Lib.Pipeline.Value
import Idealize.ShloMosaic.Lib.ValueIdx

noncomputable section

/-! # The three scaling regions as whole-array functions

Each region reads an array h of 1700000 rows (width 128 or 64) and a column n of 1700000 norms, in 170 blocks of
10000 rows, and writes in each block h(r, q) · n(r, 0). Whatever the two arrays hold at the region's entry, the
output array ends holding the product of the column broadcast along the rows with h, entry by entry
n(r, 0) · h(r, q): the two orders agree because the product of extended reals commutes, and the 170 blocks tile
the rows. -/

namespace Cert.KernelIdeal.RegionScale

open Cert.KernelIdeal Cert.KernelIdeal.Gen Idealize.ShloMosaic Idealize.ShloMosaic.TcCoe Idealize.SL.Sem
open Idealize.ShloMosaic.Pipeline (Dat)
open Idealize.ShloMosaic.ValueIdx

/-- A block's store and loads sit at the zero offsets, however the zeros are spelt. -/
theorem zero_offsets : (![0, 0] : Fin 2 → Nat) = fun _ => 0 := funext fun a => by fin_cases a <;> rfl

/-! ## Region 1: rows of width 128 scaled by the column of norms -/

/-- The body's product at entry (p, q) of a block: row p of the block of rows, times entry p of the block of the
    column (the two identity reshapes drop, the column is read at (p, 0) whatever q is). -/
theorem product1_apply (n : Vec Ideal S10000x1 .f32) (x : Vec Ideal S10000x128 .f32) (p : Fin 10000) (q : Fin 128) :
    k1_pay1 n x (ix2 p q) = x (ix2 p q) * n (ix2 p 0) := by
  show mulf (F := Ideal) (φ := .f32) (shapeCast S10000x128 x shapeCasts_S10000x128_S10000x128)
      (broadcastTo S10000x128 (shapeCast S10000x1 (shapeCast S10000x1 n shapeCasts_S10000x1_S10000x1) shapeCasts_S10000x1_S10000x1)
        broadcasts_S10000x1_S10000x128) (ix2 p q) = _
  rw [shapeCast_self, shapeCast_self, shapeCast_self, mulf_apply]
  congr 1
  exact broadcastTo_apply n broadcasts_S10000x1_S10000x128 (ix2 p q) (ix2 p 0) (fun a => match a with
    | ⟨0, _⟩ => by show p.val = if (10000 : Nat) = 1 then 0 else p.val; rw [if_neg (by decide)]
    | ⟨1, _⟩ => by show 0 = if (1 : Nat) = 1 then 0 else q.val; rw [if_pos rfl])

/-- One entry of the whole-array product against the body's: h at the same index times n at the index the
    broadcast of the column reads, in the other order — the product of extended reals commutes. -/
theorem entry1 (h : Vec Ideal S1700000x128 .f32) (n : Vec Ideal S1700000x1 .f32)
    (i' i : S1700000x128.Idx) (k : S1700000x1.Idx) (hi : i' = i)
    (hk : ∀ a : Fin 2, (k a).val = if Cert.ReferenceIdeal.S1700000x1.size a = 1 then 0 else (i ((![0, 1] : Fin 2 → Fin 2) a)).val) :
    h i' * n k = mulf (F := Ideal) (s := Cert.ReferenceIdeal.S1700000x128) (φ := .f32) (broadcastInDim Cert.ReferenceIdeal.S1700000x128 ![0, 1] Cert.ReferenceIdeal.Facts₀.bcast_S1700000x1_S1700000x128_0_1 n) h i := by
  subst hi
  rw [mulf_apply, mul_comm]
  congr 1
  exact (broadcastInDim_apply _ Cert.ReferenceIdeal.Facts₀.bcast_S1700000x1_S1700000x128_0_1 n i' k hk).symm

/-- The index maps over the 170 grid points: the rows' window and the column's window move with the output's along
    axis 0, every window stays at block 0 along axis 1, and the output's block index stays below 170. -/
theorem index_facts1 : ∀ t : Fin cfg1.N, win1_0.index t (0 : Fin 2) = win1_2.index t (0 : Fin 2)
    ∧ win1_1.index t (0 : Fin 2) = win1_2.index t (0 : Fin 2)
    ∧ win1_0.index t (1 : Fin 2) = 0 ∧ win1_1.index t (1 : Fin 2) = 0 ∧ win1_2.index t (1 : Fin 2) = 0
    ∧ win1_2.index t (0 : Fin 2) ≤ 169 :=
  (by decide +kernel : ∀ t : Fin grid1.N, _)

/-- Every one of the 170 row blocks is some grid point's. -/
theorem index_onto1 : ∀ r : Fin 170, ∃ t : Fin cfg1.N, win1_2.index t = ![r.val, 0] :=
  (by decide +kernel : ∀ r : Fin 170, ∃ t : Fin grid1.N, win1_2.index t = ![r.val, 0])

/-- What grid point t writes back is block t of the whole-array product: at (p, q) of the block the body gives
    h(10000·t + p, q) · n(10000·t + p, 0), and the array's entry at row r = 10000·t + p is n(r, 0) · h(r, q). -/
theorem flushed1 (V : (c : Dev nD) → (b : Ref sig .tc) → Buf (Elt Ideal) ((c : Thread nD τ).loc b)) (c : Dev nD) (t : Fin cfg1.N) :
    (dat1 V c).flushed 2 t = ((cfg1.win 2).blk t).view.read (Elt Ideal)
      (mulf (F := Ideal) (s := Cert.ReferenceIdeal.S1700000x128) (φ := .f32) (broadcastInDim Cert.ReferenceIdeal.S1700000x128 ![0, 1] Cert.ReferenceIdeal.Facts₀.bcast_S1700000x1_S1700000x128_0_1 (V c main_v40)) (V c main_v39)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S10000x1) zero_offsets]
  obtain ⟨e0, e1, e2, e3, e4, e5⟩ := index_facts1 t
  funext j
  obtain ⟨p, q, rfl⟩ : ∃ (p : Fin 10000) (q : Fin 128), j = ix2 p q := ⟨j 0, j 1, eq_ix2 j⟩
  show k1_pay1 (iblk1 V c 1 t) (iblk1 V c 0 t) (ix2 p q) = _
  rw [product1_apply]
  -- the rows' block and the output's block sit at the same place of their arrays
  have hi : (((cfg1.win 0).blk t).view.emb (ix2 p q) : S1700000x128.Idx) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; rw [e0]
    | ⟨1, _⟩ => show win1_0.index t (1 : Fin 2) * 128 + 1 * q.val = win1_2.index t (1 : Fin 2) * 128 + 1 * q.val; rw [e2, e4]
  -- the column's block sits at the same rows, and its one column is column 0
  have hk : ∀ a : Fin 2, ((((cfg1.win 1).blk t).view.emb (ix2 p 0) : S1700000x1.Idx) a).val
      = if Cert.ReferenceIdeal.S1700000x1.size a = 1 then 0 else ((((cfg1.win 2).blk t).view.emb (ix2 p q) : S1700000x128.Idx) ((![0, 1] : Fin 2 → Fin 2) a)).val := by
    intro a
    match a with
    | ⟨0, _⟩ =>
      show win1_1.index t (0 : Fin 2) * 10000 + 1 * p.val = if (1700000 : Nat) = 1 then 0 else win1_2.index t (0 : Fin 2) * 10000 + 1 * p.val
      rw [if_neg (by decide), e1]
    | ⟨1, _⟩ =>
      show win1_1.index t (1 : Fin 2) * 1 + 1 * 0 = if (1 : Nat) = 1 then 0 else win1_2.index t (1 : Fin 2) * 128 + 1 * q.val
      rw [if_pos rfl, e3]
  exact entry1 (V c main_v39) (V c main_v40) _ _ _ hi hk

/-- An index of the array is in grid point t's block iff each coordinate is in the block's range on its axis. -/
theorem mem_block1 (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v41).slice (win1_2.rect t)).set ↔ _
  rw [View.set_slice_whole, Rect.mem_set_unit]
  exact Iff.rfl

/-- The 170 blocks of 10000 rows tile the 1700000 rows: row r is in block r / 10000. -/
theorem cover1 (i : S1700000x128.Idx) : ∃ t : Fin cfg1.N, (cfg1.win 2).flush t = true ∧ i ∈ ((cfg1.win 2).blk t).view.set := by
  have hi0 : (i 0).val < 1700000 := (i 0).isLt
  have hi1 : (i 1).val < 128 := (i 1).isLt
  obtain ⟨t, ht⟩ := index_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- THE ARRAY the region leaves: the rows, each scaled by its norm, as one function of the two arrays at entry. -/
theorem scaled1 (V : (c : Dev nD) → (b : Ref sig .tc) → Buf (Elt Ideal) ((c : Thread nD τ).loc b)) (c : Dev nD) :
    (dat1 V c).arrAt 2 cfg1.N = mulf (F := Ideal) (s := Cert.ReferenceIdeal.S1700000x128) (φ := .f32) (broadcastInDim Cert.ReferenceIdeal.S1700000x128 ![0, 1] Cert.ReferenceIdeal.Facts₀.bcast_S1700000x1_S1700000x128_0_1 (V c main_v40)) (V c main_v39) :=
  (dat1 V c).arrAt_eq_of_cover 2 _ (fun t _ => flushed1 V c t) cover1

/-! ## Region 3: rows of width 64 scaled by the column of norms -/

/-- The body's product at entry (p, q) of a block: row p of the block of rows, times entry p of the block of the
    column (the two identity reshapes drop, the column is read at (p, 0) whatever q is). -/
theorem product3_apply (n : Vec Ideal S10000x1 .f32) (x : Vec Ideal S10000x64 .f32) (p : Fin 10000) (q : Fin 64) :
    k3_pay1 n x (ix2 p q) = x (ix2 p q) * n (ix2 p 0) := by
  show mulf (F := Ideal) (φ := .f32) (shapeCast S10000x64 x shapeCasts_S10000x64_S10000x64)
      (broadcastTo S10000x64 (shapeCast S10000x1 (shapeCast S10000x1 n shapeCasts_S10000x1_S10000x1) shapeCasts_S10000x1_S10000x1)
        broadcasts_S10000x1_S10000x64) (ix2 p q) = _
  rw [shapeCast_self, shapeCast_self, shapeCast_self, mulf_apply]
  congr 1
  exact broadcastTo_apply n broadcasts_S10000x1_S10000x64 (ix2 p q) (ix2 p 0) (fun a => match a with
    | ⟨0, _⟩ => by show p.val = if (10000 : Nat) = 1 then 0 else p.val; rw [if_neg (by decide)]
    | ⟨1, _⟩ => by show 0 = if (1 : Nat) = 1 then 0 else q.val; rw [if_pos rfl])

/-- One entry of the whole-array product against the body's: h at the same index times n at the index the
    broadcast of the column reads, in the other order — the product of extended reals commutes. -/
theorem entry3 (h : Vec Ideal S1700000x64 .f32) (n : Vec Ideal S1700000x1 .f32)
    (i' i : S1700000x64.Idx) (k : S1700000x1.Idx) (hi : i' = i)
    (hk : ∀ a : Fin 2, (k a).val = if Cert.ReferenceIdeal.S1700000x1.size a = 1 then 0 else (i ((![0, 1] : Fin 2 → Fin 2) a)).val) :
    h i' * n k = mulf (F := Ideal) (s := Cert.ReferenceIdeal.S1700000x64) (φ := .f32) (broadcastInDim Cert.ReferenceIdeal.S1700000x64 ![0, 1] Cert.ReferenceIdeal.Facts₀.bcast_S1700000x1_S1700000x64_0_1 n) h i := by
  subst hi
  rw [mulf_apply, mul_comm]
  congr 1
  exact (broadcastInDim_apply _ Cert.ReferenceIdeal.Facts₀.bcast_S1700000x1_S1700000x64_0_1 n i' k hk).symm

/-- The index maps over the 170 grid points: the rows' window and the column's window move with the output's along
    axis 0, every window stays at block 0 along axis 1, and the output's block index stays below 170. -/
theorem index_facts3 : ∀ t : Fin cfg3.N, win3_0.index t (0 : Fin 2) = win3_2.index t (0 : Fin 2)
    ∧ win3_1.index t (0 : Fin 2) = win3_2.index t (0 : Fin 2)
    ∧ win3_0.index t (1 : Fin 2) = 0 ∧ win3_1.index t (1 : Fin 2) = 0 ∧ win3_2.index t (1 : Fin 2) = 0
    ∧ win3_2.index t (0 : Fin 2) ≤ 169 :=
  (by decide +kernel : ∀ t : Fin grid3.N, _)

/-- Every one of the 170 row blocks is some grid point's. -/
theorem index_onto3 : ∀ r : Fin 170, ∃ t : Fin cfg3.N, win3_2.index t = ![r.val, 0] :=
  (by decide +kernel : ∀ r : Fin 170, ∃ t : Fin grid3.N, win3_2.index t = ![r.val, 0])

/-- What grid point t writes back is block t of the whole-array product: at (p, q) of the block the body gives
    h(10000·t + p, q) · n(10000·t + p, 0), and the array's entry at row r = 10000·t + p is n(r, 0) · h(r, q). -/
theorem flushed3 (V : (c : Dev nD) → (b : Ref sig .tc) → Buf (Elt Ideal) ((c : Thread nD τ).loc b)) (c : Dev nD) (t : Fin cfg3.N) :
    (dat3 V c).flushed 2 t = ((cfg3.win 2).blk t).view.read (Elt Ideal)
      (mulf (F := Ideal) (s := Cert.ReferenceIdeal.S1700000x64) (φ := .f32) (broadcastInDim Cert.ReferenceIdeal.S1700000x64 ![0, 1] Cert.ReferenceIdeal.Facts₀.bcast_S1700000x1_S1700000x64_0_1 (V c main_v57)) (V c main_v56)) := by
  show (cfg3.win 2).cut (grid3.coords t) ((dat3 V c).after 2 t) = _
  rw [after3_2]
  unfold out3_2
  rw [View.canon_unit_zero zero_offsets]
  simp only [View.ld_unit_zero (S := S10000x64) zero_offsets, View.ld_unit_zero (S := S10000x1) zero_offsets]
  obtain ⟨e0, e1, e2, e3, e4, e5⟩ := index_facts3 t
  funext j
  obtain ⟨p, q, rfl⟩ : ∃ (p : Fin 10000) (q : Fin 64), j = ix2 p q := ⟨j 0, j 1, eq_ix2 j⟩
  show k3_pay1 (iblk3 V c 1 t) (iblk3 V c 0 t) (ix2 p q) = _
  rw [product3_apply]
  -- the rows' block and the output's block sit at the same place of their arrays
  have hi : (((cfg3.win 0).blk t).view.emb (ix2 p q) : S1700000x64.Idx) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; rw [e0]
    | ⟨1, _⟩ => show win3_0.index t (1 : Fin 2) * 64 + 1 * q.val = win3_2.index t (1 : Fin 2) * 64 + 1 * q.val; rw [e2, e4]
  -- the column's block sits at the same rows, and its one column is column 0
  have hk : ∀ a : Fin 2, ((((cfg3.win 1).blk t).view.emb (ix2 p 0) : S1700000x1.Idx) a).val
      = if Cert.ReferenceIdeal.S1700000x1.size a = 1 then 0 else ((((cfg3.win 2).blk t).view.emb (ix2 p q) : S1700000x64.Idx) ((![0, 1] : Fin 2 → Fin 2) a)).val := by
    intro a
    match a with
    | ⟨0, _⟩ =>
      show win3_1.index t (0 : Fin 2) * 10000 + 1 * p.val = if (1700000 : Nat) = 1 then 0 else win3_2.index t (0 : Fin 2) * 10000 + 1 * p.val
      rw [if_neg (by decide), e1]
    | ⟨1, _⟩ =>
      show win3_1.index t (1 : Fin 2) * 1 + 1 * 0 = if (1 : Nat) = 1 then 0 else win3_2.index t (1 : Fin 2) * 64 + 1 * q.val
      rw [if_pos rfl, e3]
  exact entry3 (V c main_v56) (V c main_v57) _ _ _ hi hk

/-- An index of the array is in grid point t's block iff each coordinate is in the block's range on its axis. -/
theorem mem_block3 (t : Fin cfg3.N) (i : S1700000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v58).slice (win3_2.rect t)).set ↔ _
  rw [View.set_slice_whole, Rect.mem_set_unit]
  exact Iff.rfl

/-- The 170 blocks of 10000 rows tile the 1700000 rows: row r is in block r / 10000. -/
theorem cover3 (i : S1700000x64.Idx) : ∃ t : Fin cfg3.N, (cfg3.win 2).flush t = true ∧ i ∈ ((cfg3.win 2).blk t).view.set := by
  have hi0 : (i 0).val < 1700000 := (i 0).isLt
  have hi1 : (i 1).val < 64 := (i 1).isLt
  obtain ⟨t, ht⟩ := index_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- THE ARRAY the region leaves: the rows, each scaled by its norm, as one function of the two arrays at entry. -/
theorem scaled3 (V : (c : Dev nD) → (b : Ref sig .tc) → Buf (Elt Ideal) ((c : Thread nD τ).loc b)) (c : Dev nD) :
    (dat3 V c).arrAt 2 cfg3.N = mulf (F := Ideal) (s := Cert.ReferenceIdeal.S1700000x64) (φ := .f32) (broadcastInDim Cert.ReferenceIdeal.S1700000x64 ![0, 1] Cert.ReferenceIdeal.Facts₀.bcast_S1700000x1_S1700000x64_0_1 (V c main_v57)) (V c main_v56) :=
  (dat3 V c).arrAt_eq_of_cover 2 _ (fun t _ => flushed3 V c t) cover3

/-! ## Region 5: rows of width 64 scaled by the column of norms -/

/-- The body's product at entry (p, q) of a block: row p of the block of rows, times entry p of the block of the
    column (the two identity reshapes drop, the column is read at (p, 0) whatever q is). -/
theorem product5_apply (n : Vec Ideal S10000x1 .f32) (x : Vec Ideal S10000x64 .f32) (p : Fin 10000) (q : Fin 64) :
    k5_pay1 n x (ix2 p q) = x (ix2 p q) * n (ix2 p 0) := by
  show mulf (F := Ideal) (φ := .f32) (shapeCast S10000x64 x shapeCasts_S10000x64_S10000x64)
      (broadcastTo S10000x64 (shapeCast S10000x1 (shapeCast S10000x1 n shapeCasts_S10000x1_S10000x1) shapeCasts_S10000x1_S10000x1)
        broadcasts_S10000x1_S10000x64) (ix2 p q) = _
  rw [shapeCast_self, shapeCast_self, shapeCast_self, mulf_apply]
  congr 1
  exact broadcastTo_apply n broadcasts_S10000x1_S10000x64 (ix2 p q) (ix2 p 0) (fun a => match a with
    | ⟨0, _⟩ => by show p.val = if (10000 : Nat) = 1 then 0 else p.val; rw [if_neg (by decide)]
    | ⟨1, _⟩ => by show 0 = if (1 : Nat) = 1 then 0 else q.val; rw [if_pos rfl])

/-- One entry of the whole-array product against the body's: h at the same index times n at the index the
    broadcast of the column reads, in the other order — the product of extended reals commutes. -/
theorem entry5 (h : Vec Ideal S1700000x64 .f32) (n : Vec Ideal S1700000x1 .f32)
    (i' i : S1700000x64.Idx) (k : S1700000x1.Idx) (hi : i' = i)
    (hk : ∀ a : Fin 2, (k a).val = if Cert.ReferenceIdeal.S1700000x1.size a = 1 then 0 else (i ((![0, 1] : Fin 2 → Fin 2) a)).val) :
    h i' * n k = mulf (F := Ideal) (s := Cert.ReferenceIdeal.S1700000x64) (φ := .f32) (broadcastInDim Cert.ReferenceIdeal.S1700000x64 ![0, 1] Cert.ReferenceIdeal.Facts₀.bcast_S1700000x1_S1700000x64_0_1 n) h i := by
  subst hi
  rw [mulf_apply, mul_comm]
  congr 1
  exact (broadcastInDim_apply _ Cert.ReferenceIdeal.Facts₀.bcast_S1700000x1_S1700000x64_0_1 n i' k hk).symm

/-- The index maps over the 170 grid points: the rows' window and the column's window move with the output's along
    axis 0, every window stays at block 0 along axis 1, and the output's block index stays below 170. -/
theorem index_facts5 : ∀ t : Fin cfg5.N, win5_0.index t (0 : Fin 2) = win5_2.index t (0 : Fin 2)
    ∧ win5_1.index t (0 : Fin 2) = win5_2.index t (0 : Fin 2)
    ∧ win5_0.index t (1 : Fin 2) = 0 ∧ win5_1.index t (1 : Fin 2) = 0 ∧ win5_2.index t (1 : Fin 2) = 0
    ∧ win5_2.index t (0 : Fin 2) ≤ 169 :=
  (by decide +kernel : ∀ t : Fin grid5.N, _)

/-- Every one of the 170 row blocks is some grid point's. -/
theorem index_onto5 : ∀ r : Fin 170, ∃ t : Fin cfg5.N, win5_2.index t = ![r.val, 0] :=
  (by decide +kernel : ∀ r : Fin 170, ∃ t : Fin grid5.N, win5_2.index t = ![r.val, 0])

/-- What grid point t writes back is block t of the whole-array product: at (p, q) of the block the body gives
    h(10000·t + p, q) · n(10000·t + p, 0), and the array's entry at row r = 10000·t + p is n(r, 0) · h(r, q). -/
theorem flushed5 (V : (c : Dev nD) → (b : Ref sig .tc) → Buf (Elt Ideal) ((c : Thread nD τ).loc b)) (c : Dev nD) (t : Fin cfg5.N) :
    (dat5 V c).flushed 2 t = ((cfg5.win 2).blk t).view.read (Elt Ideal)
      (mulf (F := Ideal) (s := Cert.ReferenceIdeal.S1700000x64) (φ := .f32) (broadcastInDim Cert.ReferenceIdeal.S1700000x64 ![0, 1] Cert.ReferenceIdeal.Facts₀.bcast_S1700000x1_S1700000x64_0_1 (V c main_v73)) (V c main_v72)) := by
  show (cfg5.win 2).cut (grid5.coords t) ((dat5 V c).after 2 t) = _
  rw [after5_2]
  unfold out5_2
  rw [View.canon_unit_zero zero_offsets]
  simp only [View.ld_unit_zero (S := S10000x64) zero_offsets, View.ld_unit_zero (S := S10000x1) zero_offsets]
  obtain ⟨e0, e1, e2, e3, e4, e5⟩ := index_facts5 t
  funext j
  obtain ⟨p, q, rfl⟩ : ∃ (p : Fin 10000) (q : Fin 64), j = ix2 p q := ⟨j 0, j 1, eq_ix2 j⟩
  show k5_pay1 (iblk5 V c 1 t) (iblk5 V c 0 t) (ix2 p q) = _
  rw [product5_apply]
  -- the rows' block and the output's block sit at the same place of their arrays
  have hi : (((cfg5.win 0).blk t).view.emb (ix2 p q) : S1700000x64.Idx) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; rw [e0]
    | ⟨1, _⟩ => show win5_0.index t (1 : Fin 2) * 64 + 1 * q.val = win5_2.index t (1 : Fin 2) * 64 + 1 * q.val; rw [e2, e4]
  -- the column's block sits at the same rows, and its one column is column 0
  have hk : ∀ a : Fin 2, ((((cfg5.win 1).blk t).view.emb (ix2 p 0) : S1700000x1.Idx) a).val
      = if Cert.ReferenceIdeal.S1700000x1.size a = 1 then 0 else ((((cfg5.win 2).blk t).view.emb (ix2 p q) : S1700000x64.Idx) ((![0, 1] : Fin 2 → Fin 2) a)).val := by
    intro a
    match a with
    | ⟨0, _⟩ =>
      show win5_1.index t (0 : Fin 2) * 10000 + 1 * p.val = if (1700000 : Nat) = 1 then 0 else win5_2.index t (0 : Fin 2) * 10000 + 1 * p.val
      rw [if_neg (by decide), e1]
    | ⟨1, _⟩ =>
      show win5_1.index t (1 : Fin 2) * 1 + 1 * 0 = if (1 : Nat) = 1 then 0 else win5_2.index t (1 : Fin 2) * 64 + 1 * q.val
      rw [if_pos rfl, e3]
  exact entry5 (V c main_v72) (V c main_v73) _ _ _ hi hk

/-- An index of the array is in grid point t's block iff each coordinate is in the block's range on its axis. -/
theorem mem_block5 (t : Fin cfg5.N) (i : S1700000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v74).slice (win5_2.rect t)).set ↔ _
  rw [View.set_slice_whole, Rect.mem_set_unit]
  exact Iff.rfl

/-- The 170 blocks of 10000 rows tile the 1700000 rows: row r is in block r / 10000. -/
theorem cover5 (i : S1700000x64.Idx) : ∃ t : Fin cfg5.N, (cfg5.win 2).flush t = true ∧ i ∈ ((cfg5.win 2).blk t).view.set := by
  have hi0 : (i 0).val < 1700000 := (i 0).isLt
  have hi1 : (i 1).val < 64 := (i 1).isLt
  obtain ⟨t, ht⟩ := index_onto5 ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_block5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- THE ARRAY the region leaves: the rows, each scaled by its norm, as one function of the two arrays at entry. -/
theorem scaled5 (V : (c : Dev nD) → (b : Ref sig .tc) → Buf (Elt Ideal) ((c : Thread nD τ).loc b)) (c : Dev nD) :
    (dat5 V c).arrAt 2 cfg5.N = mulf (F := Ideal) (s := Cert.ReferenceIdeal.S1700000x64) (φ := .f32) (broadcastInDim Cert.ReferenceIdeal.S1700000x64 ![0, 1] Cert.ReferenceIdeal.Facts₀.bcast_S1700000x1_S1700000x64_0_1 (V c main_v73)) (V c main_v72) :=
  (dat5 V c).arrAt_eq_of_cover 2 _ (fun t _ => flushed5 V c t) cover5

end Cert.KernelIdeal.RegionScale

end
-- ==== Proof.LibUnitAxisRelayout.lean ====
/-
  Re-laying a vector with one extra unit axis, two spellings of one function.

  A length-n vector becomes an [n, 1] column either by a reshape (the same elements in row-major order) or by a
  broadcast along axis 0 into a shape whose second axis has extent one; a length-b vector becomes a [1, b] row either
  by a reshape or by a broadcast along axis 1. In each case entry (p, 0) resp. (0, q) of the result is entry p resp. q
  of the vector, so the two spellings agree. Generic in the extent and in the element type.
-/
import Idealize.ShloMosaic.Lib.Pipeline.Value
import Idealize.ShloMosaic.Lib.ValueIdx

namespace Idealize.ShloMosaic.UnitAxisRelayout

open Idealize.ShloMosaic

variable {α : Type}

/-- A reshape [n] → [n, 1] is the broadcast along axis 0: entry (p, 0) of either is entry p of the vector. -/
theorem shapeCast_column_eq_broadcastInDim {n : Nat} (x : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ x hc = broadcastInDim ⟨2, ![n, 1]⟩ ![0] hb x := by
  funext j
  have h1 : (j 1).val = 0 := by have := (j 1).isLt; simp at this; omega
  have hlt : (j 0).val < n := by have := (j 0).isLt; simpa using this
  let k : (⟨1, ![n]⟩ : Shape).Idx := fun _ => ⟨(j 0).val, by simpa using hlt⟩
  have e1 : shapeCast ⟨2, ![n, 1]⟩ x hc j = x k := by
    refine shapeCast_apply x hc j k ?_
    rw [Shape.rowMajor_val_one, Shape.rowMajor_val_two, h1]
    show (j 0).val = (j 0).val * 1 + 0
    omega
  have e2 : broadcastInDim ⟨2, ![n, 1]⟩ ![0] hb x j = x k := by
    refine broadcastInDim_apply ![0] hb x j k fun a => ?_
    match a with
    | ⟨0, _⟩ =>
      show (j 0).val = if n = 1 then 0 else (j 0).val
      split
      · omega
      · rfl
  rw [e1, e2]

/-- A reshape [b] → [1, b] is the broadcast along axis 1: entry (0, q) of either is entry q of the vector. -/
theorem shapeCast_row_eq_broadcastInDim {b : Nat} (x : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ x hc = broadcastInDim ⟨2, ![1, b]⟩ ![1] hb x := by
  funext j
  have h0 : (j 0).val = 0 := by have := (j 0).isLt; simp at this; omega
  have hlt : (j 1).val < b := by have := (j 1).isLt; simpa using this
  let k : (⟨1, ![b]⟩ : Shape).Idx := fun _ => ⟨(j 1).val, by simpa using hlt⟩
  have e1 : shapeCast ⟨2, ![1, b]⟩ x hc j = x k := by
    refine shapeCast_apply x hc j k ?_
    rw [Shape.rowMajor_val_one, Shape.rowMajor_val_two, h0]
    show (j 1).val = 0 * b + (j 1).val
    omega
  have e2 : broadcastInDim ⟨2, ![1, b]⟩ ![1] hb x j = x k := by
    refine broadcastInDim_apply ![1] hb x j k fun a => ?_
    match a with
    | ⟨0, _⟩ =>
      show (j 1).val = if b = 1 then 0 else (j 1).val
      split
      · omega
      · rfl
  rw [e1, e2]

end Idealize.ShloMosaic.UnitAxisRelayout
-- ==== Proof.HostNorm.lean ====
/-
  The host operations of the graph convolution before its first product, and between the first product and the
  first scaling, read over an arbitrary valuation of the buffers.

  Before the first product the program builds, from the edge list and the edge weights, the row and column index
  vectors (each edge's end followed by the self loops 0 … 99999), and the symmetric normalisation of the padded
  weights: w(e) / sqrt(deg(row e)) / sqrt(deg(col e)), a vertex of degree zero contributing zero. After the first
  product it gathers the product's rows at the row indices and lays the normalisation out as a column. Every
  result is the value the reference program computes for the operation of the same position.
-/
import proofs.«155272_j27771258536172_1_alg».proof.Proof.Gen.KernelIdeal.Launch
import proofs.«155272_j27771258536172_1_alg».proof.Proof.Gen.ReferenceIdeal.Read
import Idealize.ShloMosaic.Lib.StableHlo.Run
import proofs.«155272_j27771258536172_1_alg».proof.Proof.LibUnitAxisRelayout

noncomputable section

namespace Cert.KernelIdeal.HostNorm

open Cert.KernelIdeal Cert.KernelIdeal.Gen Cert.ReferenceIdeal.Read
open Idealize.ShloMosaic Idealize.ShloMosaic.StableHlo Idealize.SL.Sem

/-! ## The first stretch: the index vectors, the padded weights, the degree test and its inverse root

Nineteen operations. The row and column index vectors are the two rows of the edge list, each followed by
0 … 99999 (the self loops); the padded weights are the edge weights followed by ones; the degrees are the
padded weights scatter-added at the column indices into zeros; then the test "degree > 0" and the inverse
square root of the degrees, and the zero the selection falls back to. Each is the reference's value of the
same name, the two programs' operations being the same operations in the same order. -/

theorem seg0_v3 (Wv : Valuation τ sig (Elt Ideal)) :
    StableHlo.after hostOps0 Wv (Proc.devRef .tc main_v3) = val_main_v3 (F := Ideal) (Wv (Proc.devRef .tc main_arg1)) := by
  after_results
  rfl

theorem seg0_v6 (Wv : Valuation τ sig (Elt Ideal)) :
    StableHlo.after hostOps0 Wv (Proc.devRef .tc main_v6) = val_main_v6 (F := Ideal) (Wv (Proc.devRef .tc main_arg1)) := by
  after_results
  rfl

theorem seg0_v8 (Wv : Valuation τ sig (Elt Ideal)) :
    StableHlo.after hostOps0 Wv (Proc.devRef .tc main_v8) = val_main_v8 (F := Ideal) (Wv (Proc.devRef .tc main_arg2)) := by
  after_results
  rfl

theorem seg0_v13 (Wv : Valuation τ sig (Elt Ideal)) :
    StableHlo.after hostOps0 Wv (Proc.devRef .tc main_v13)
      = val_main_v13 (F := Ideal) (Wv (Proc.devRef .tc main_arg1)) (Wv (Proc.devRef .tc main_arg2)) := by
  after_results
  rfl

theorem seg0_v14 (Wv : Valuation τ sig (Elt Ideal)) :
    StableHlo.after hostOps0 Wv (Proc.devRef .tc main_v14)
      = val_main_v14 (F := Ideal) (Wv (Proc.devRef .tc main_arg1)) (Wv (Proc.devRef .tc main_arg2)) := by
  after_results
  rfl

theorem seg0_cst_2 (Wv : Valuation τ sig (Elt Ideal)) :
    StableHlo.after hostOps0 Wv (Proc.devRef .tc main_cst_2) = val_main_cst_2 (F := Ideal) := by
  after_results
  rfl

/-! ## The second stretch: the selection

Three operations, the body of the selection "inverse root where the degree is positive, else zero": the zero
converted (the identity), broadcast to a vector, and the selection itself. It reads the test, the inverse roots
and the zero, and writes none of the index vectors or the padded weights. -/

/-- The selection's three operations spelt at their buffers' own types: the transport of a value along the equation
    "this buffer's type is the value's type" is the identity, both types being the same literal. -/
theorem hostOps0_1_eq : (hostOps0_1 : List (HloOp τ sig (Elt Ideal))) =
    [ StableHlo.unary main_cst_2 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.ternary main_v13 main_v14 main_call0_v1 main_v15 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

theorem seg1_v15 (Wv : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h13 : Wv (Proc.devRef .tc main_v13) = val_main_v13 (F := Ideal) x1 x2)
    (h14 : Wv (Proc.devRef .tc main_v14) = val_main_v14 (F := Ideal) x1 x2)
    (hc : Wv (Proc.devRef .tc main_cst_2) = val_main_cst_2 (F := Ideal)) :
    StableHlo.after hostOps0_1 Wv (Proc.devRef .tc main_v15) = val_main_v15 (F := Ideal) x1 x2 := by
  rw [hostOps0_1_eq]
  after_results
  rw [h13, h14, hc]
  rfl

theorem seg1_keep_v3 (Wv : Valuation τ sig (Elt Ideal)) :
    StableHlo.after hostOps0_1 Wv (Proc.devRef .tc main_v3) = Wv (Proc.devRef .tc main_v3) := by
  after_results

theorem seg1_keep_v6 (Wv : Valuation τ sig (Elt Ideal)) :
    StableHlo.after hostOps0_1 Wv (Proc.devRef .tc main_v6) = Wv (Proc.devRef .tc main_v6) := by
  after_results

theorem seg1_keep_v8 (Wv : Valuation τ sig (Elt Ideal)) :
    StableHlo.after hostOps0_1 Wv (Proc.devRef .tc main_v8) = Wv (Proc.devRef .tc main_v8) := by
  after_results

/-! ## The third stretch: the edge normalisation

Twenty operations: the selected inverse roots gathered at the row indices (a negative index wrapped by adding
100000) times the padded weights, times the selected inverse roots gathered at the column indices (wrapped the
same way). It reads the two index vectors, the padded weights and the selection, and writes neither index
vector. -/

set_option maxRecDepth 8192 in
theorem seg2_v31 (Wv : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h3 : Wv (Proc.devRef .tc main_v3) = val_main_v3 (F := Ideal) x1)
    (h6 : Wv (Proc.devRef .tc main_v6) = val_main_v6 (F := Ideal) x1)
    (h8 : Wv (Proc.devRef .tc main_v8) = val_main_v8 (F := Ideal) x2)
    (h15 : Wv (Proc.devRef .tc main_v15) = val_main_v15 (F := Ideal) x1 x2) :
    StableHlo.after hostOps0_2 Wv (Proc.devRef .tc main_v31) = val_main_v31 (F := Ideal) x1 x2 := by
  after_results_simp
  rw [h3, h6, h8, h15]
  rfl

theorem seg2_keep_v3 (Wv : Valuation τ sig (Elt Ideal)) :
    StableHlo.after hostOps0_2 Wv (Proc.devRef .tc main_v3) = Wv (Proc.devRef .tc main_v3) := by
  after_results

theorem seg2_keep_v6 (Wv : Valuation τ sig (Elt Ideal)) :
    StableHlo.after hostOps0_2 Wv (Proc.devRef .tc main_v6) = Wv (Proc.devRef .tc main_v6) := by
  after_results

/-! ## The three stretches composed -/

/-- The row index vector before the first product: the edge list's first row followed by the self loops. -/
theorem row (Wv : Valuation τ sig (Elt Ideal)) :
    StableHlo.after hostOps0_2 (StableHlo.after hostOps0_1 (StableHlo.after hostOps0 Wv)) (Proc.devRef .tc main_v3)
      = val_main_v3 (F := Ideal) (Wv (Proc.devRef .tc main_arg1)) :=
  (seg2_keep_v3 _).trans ((seg1_keep_v3 _).trans (seg0_v3 Wv))

/-- The column index vector before the first product: the edge list's second row followed by the self loops. -/
theorem col (Wv : Valuation τ sig (Elt Ideal)) :
    StableHlo.after hostOps0_2 (StableHlo.after hostOps0_1 (StableHlo.after hostOps0 Wv)) (Proc.devRef .tc main_v6)
      = val_main_v6 (F := Ideal) (Wv (Proc.devRef .tc main_arg1)) :=
  (seg2_keep_v6 _).trans ((seg1_keep_v6 _).trans (seg0_v6 Wv))

/-- The edge normalisation before the first product: inverse root of the row's degree, times the weight, times
    inverse root of the column's degree. -/
theorem norm (Wv : Valuation τ sig (Elt Ideal)) :
    StableHlo.after hostOps0_2 (StableHlo.after hostOps0_1 (StableHlo.after hostOps0 Wv)) (Proc.devRef .tc main_v31)
      = val_main_v31 (F := Ideal) (Wv (Proc.devRef .tc main_arg1)) (Wv (Proc.devRef .tc main_arg2)) :=
  seg2_v31 _ _ _
    ((seg1_keep_v3 _).trans (seg0_v3 Wv))
    ((seg1_keep_v6 _).trans (seg0_v6 Wv))
    ((seg1_keep_v8 _).trans (seg0_v8 Wv))
    (seg1_v15 _ _ _ (seg0_v13 Wv) (seg0_v14 Wv) (seg0_cst_2 Wv))

/-! ## Between the first product and the first scaling

Ten operations: the product's rows gathered at the wrapped row indices, and the edge normalisation re-laid as a
column. The re-laying is a reshape [1700000] → [1700000, 1] here and a broadcast along axis 0 in the reference:
entry (p, 0) of either is entry p of the vector. -/

/-- The gathered rows: row p is the product's row at the p-th row index (wrapped). -/
theorem gathered (Wv : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal))
    (h32 : Wv (Proc.devRef .tc main_v32) = val_main_v32 (F := Ideal) x0 x3)
    (h3 : Wv (Proc.devRef .tc main_v3) = val_main_v3 (F := Ideal) x1) :
    StableHlo.after hostOps1 Wv (Proc.devRef .tc main_v39) = val_main_v40 (F := Ideal) x0 x1 x3 := by
  after_results
  rw [h32, h3]
  rfl

/-- The edge normalisation as a column. -/
theorem column (Wv : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h31 : Wv (Proc.devRef .tc main_v31) = val_main_v31 (F := Ideal) x1 x2) :
    StableHlo.after hostOps1 Wv (Proc.devRef .tc main_v40) = val_main_v33 (F := Ideal) x1 x2 := by
  after_results
  rw [h31]
  exact Idealize.ShloMosaic.UnitAxisRelayout.shapeCast_column_eq_broadcastInDim (n := 1700000)
    (val_main_v31 (F := Ideal) x1 x2) _ _

end Cert.KernelIdeal.HostNorm

end
-- ==== Proof.HostConv.lean ====
/-
  The host stretches of the kernel program that follow each scaling region, read over an arbitrary valuation.

  After a scaling region both programs scatter-add the scaled rows at the column indices into a zero array and add
  the bias row (and, after the first layer, take the maximum with zero); before each later scaling region both gather
  the rows of the product at the wrapped row indices, and the kernel re-lays the normalisation vector as a column by a
  reshape where the reference broadcasts it along axis 0. Each stretch is the same small tree of operations on both
  sides, so its result over a valuation that holds the reference's stage values at the stretch's inputs is the
  reference's next stage value.
-/
import proofs.«155272_j27771258536172_1_alg».proof.Proof.Gen.KernelIdeal.Launch
import proofs.«155272_j27771258536172_1_alg».proof.Proof.Gen.ReferenceIdeal.Read
import Idealize.ShloMosaic.Lib.StableHlo.Run
import proofs.«155272_j27771258536172_1_alg».proof.Proof.LibUnitAxisRelayout

noncomputable section

namespace Cert.KernelIdeal.HostConv

open Cert.KernelIdeal Cert.KernelIdeal.Gen Cert.ReferenceIdeal.Read
open Idealize.ShloMosaic Idealize.ShloMosaic.TcCoe Idealize.SL.Sem Idealize.ShloMosaic.StableHlo

variable (Wv : Valuation τ sig (Elt Ideal))
  (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S1600000, .f32⟩ : BufTy).Contents (Elt Ideal))
  (x3 : (⟨Cert.ReferenceIdeal.S128x128, .f32⟩ : BufTy).Contents (Elt Ideal))
  (x4 : (⟨Cert.ReferenceIdeal.S128, .f32⟩ : BufTy).Contents (Elt Ideal))
  (x5 : (⟨Cert.ReferenceIdeal.S128x64, .f32⟩ : BufTy).Contents (Elt Ideal))
  (x6 : (⟨Cert.ReferenceIdeal.S64, .f32⟩ : BufTy).Contents (Elt Ideal))
  (x7 : (⟨Cert.ReferenceIdeal.S128x64, .f32⟩ : BufTy).Contents (Elt Ideal))
  (x8 : (⟨Cert.ReferenceIdeal.S64, .f32⟩ : BufTy).Contents (Elt Ideal))

/-- Before the second scaling region: the rows of the product gathered at the wrapped row indices. -/
theorem gathered_mu
    (h49 : Wv (Proc.devRef .tc main_v49) = val_main_v50 (F := Ideal) x0 x1 x2 x3 x4 x5)
    (h3 : Wv (Proc.devRef .tc main_v3) = val_main_v3 (F := Ideal) x1) :
    StableHlo.after hostOps3 Wv (Proc.devRef .tc main_v56) = val_main_v58 (F := Ideal) x0 x1 x2 x3 x4 x5 := by
  after_results
  rw [h49, h3]
  rfl

/-- Before the second scaling region: the normalisation vector as a column; the reshape is the broadcast along axis 0. -/
theorem column_mu
    (h31 : Wv (Proc.devRef .tc main_v31) = val_main_v31 (F := Ideal) x1 x2) :
    StableHlo.after hostOps3 Wv (Proc.devRef .tc main_v57) = val_main_v51 (F := Ideal) x1 x2 := by
  after_results
  rw [h31]
  exact Idealize.ShloMosaic.UnitAxisRelayout.shapeCast_column_eq_broadcastInDim _ _ _

/-- After the first scaling region, up to the bias: the scaled rows scatter-added at the column indices into zeros,
    plus the bias row. -/
theorem preactivation
    (h41 : Wv (Proc.devRef .tc main_v41) = val_main_v42 (F := Ideal) x0 x1 x2 x3)
    (h6 : Wv (Proc.devRef .tc main_v6) = val_main_v6 (F := Ideal) x1)
    (h4 : Wv (Proc.devRef .tc main_arg4) = x4) :
    StableHlo.after hostOps2 Wv (Proc.devRef .tc main_v47) = val_main_v48 (F := Ideal) x0 x1 x2 x3 x4 := by
  after_results
  rw [h41, h6, h4]
  rfl

/-- The maximum with zero over any valuation: the outlined call's three operations, read at any contents of its
    argument. -/
theorem relu_stretch (Wu : Valuation τ sig (Elt Ideal))
    (a : (⟨Cert.ReferenceIdeal.S100000x128, .f32⟩ : BufTy).Contents (Elt Ideal))
    (h47 : Wu (Proc.devRef .tc main_v47) = a) :
    StableHlo.after hostOps2_1 Wu (Proc.devRef .tc main_v48)
      = maximumf (F := Ideal) (s := Cert.ReferenceIdeal.S100000x128) (φ := .f32) a (val_main_call1_v0 (F := Ideal)) := by
  after_results
  rw [h47]
  rfl

/-- After the first scaling region: the scaled rows scatter-added at the column indices into zeros, plus the bias
    row, then the maximum with zero (the hidden layer). -/
theorem hidden
    (h41 : Wv (Proc.devRef .tc main_v41) = val_main_v42 (F := Ideal) x0 x1 x2 x3)
    (h6 : Wv (Proc.devRef .tc main_v6) = val_main_v6 (F := Ideal) x1)
    (h4 : Wv (Proc.devRef .tc main_arg4) = x4) :
    StableHlo.after hostOps2_1 (StableHlo.after hostOps2 Wv) (Proc.devRef .tc main_v48)
      = val_main_v49 (F := Ideal) x0 x1 x2 x3 x4 := by
  rw [relu_stretch (StableHlo.after hostOps2 Wv) _ (preactivation Wv x0 x1 x2 x3 x4 h41 h6 h4)]
  unfold val_main_v49
  rfl

/-- After the second scaling region: the scaled rows scatter-added at the column indices into zeros, plus the bias
    row (the first result). -/
theorem mu
    (h58 : Wv (Proc.devRef .tc main_v58) = val_main_v60 (F := Ideal) x0 x1 x2 x3 x4 x5)
    (h6 : Wv (Proc.devRef .tc main_v6) = val_main_v6 (F := Ideal) x1)
    (hb : Wv (Proc.devRef .tc main_arg6) = x6) :
    StableHlo.after hostOps4 Wv (Proc.devRef .tc main_v64) = val_main_v66 (F := Ideal) x0 x1 x2 x3 x4 x5 x6 := by
  after_results
  rw [h58, h6, hb]
  rfl

/-- Before the third scaling region: the rows of the product gathered at the wrapped row indices. -/
theorem gathered_lv
    (h65 : Wv (Proc.devRef .tc main_v65) = val_main_v67 (F := Ideal) x0 x1 x2 x3 x4 x7)
    (h3 : Wv (Proc.devRef .tc main_v3) = val_main_v3 (F := Ideal) x1) :
    StableHlo.after hostOps5 Wv (Proc.devRef .tc main_v72) = val_main_v75 (F := Ideal) x0 x1 x2 x3 x4 x7 := by
  after_results
  rw [h65, h3]
  rfl

/-- Before the third scaling region: the normalisation vector as a column; the reshape is the broadcast along axis 0. -/
theorem column_lv
    (h31 : Wv (Proc.devRef .tc main_v31) = val_main_v31 (F := Ideal) x1 x2) :
    StableHlo.after hostOps5 Wv (Proc.devRef .tc main_v73) = val_main_v68 (F := Ideal) x1 x2 := by
  after_results
  rw [h31]
  exact Idealize.ShloMosaic.UnitAxisRelayout.shapeCast_column_eq_broadcastInDim _ _ _

/-- After the third scaling region: the scaled rows scatter-added at the column indices into zeros, plus the bias
    row (the second result). -/
theorem logvar
    (h74 : Wv (Proc.devRef .tc main_v74) = val_main_v77 (F := Ideal) x0 x1 x2 x3 x4 x7)
    (h6 : Wv (Proc.devRef .tc main_v6) = val_main_v6 (F := Ideal) x1)
    (hb : Wv (Proc.devRef .tc main_arg8) = x8) :
    StableHlo.after hostOps6 Wv (Proc.devRef .tc main_v80) = val_main_v83 (F := Ideal) x0 x1 x2 x3 x4 x7 x8 := by
  after_results
  rw [h74, h6, hb]
  rfl

end Cert.KernelIdeal.HostConv

end
-- ==== Proof.Boundaries.lean ====
/-
  The kernel program's two results as functions of its arguments.

  Between the launch and the return the program's buffers pass sixteen boundaries: a stretch of host operations, or one
  tiled region, lies between two neighbours. Walking the boundaries in order, each buffer that a later step reads is
  identified with a named stage of the reference computation applied to the launch contents of the arguments:
  the row and column index vectors and the normalisation weights once, before the first region; then, for each of the
  three graph convolutions, the dense product (a region), its rows gathered at the row indices (host), each gathered
  row times its weight (a region), and the sum of the scaled rows at each column index plus the bias (host), with the
  rectifier after the first convolution. A buffer that no step in between writes is read back unchanged.
-/
import proofs.«155272_j27771258536172_1_alg».proof.Proof.Gen.KernelIdeal.Frame
import proofs.«155272_j27771258536172_1_alg».proof.Proof.Gen.ReferenceIdeal.Read
import proofs.«155272_j27771258536172_1_alg».proof.Proof.Kept
import proofs.«155272_j27771258536172_1_alg».proof.Proof.RegionProduct
import proofs.«155272_j27771258536172_1_alg».proof.Proof.RegionScale
import proofs.«155272_j27771258536172_1_alg».proof.Proof.HostNorm
import proofs.«155272_j27771258536172_1_alg».proof.Proof.HostConv
import Idealize.ShloMosaic.Lib.StableHlo.Run

set_option maxRecDepth 16384

noncomputable section

namespace Cert.KernelIdeal.Boundaries

open Idealize.ShloMosaic Idealize.ShloMosaic.TcCoe Idealize.SL.Sem
open Cert.KernelIdeal Cert.KernelIdeal.Gen Cert.ReferenceIdeal.Read

variable (m : (ℓ : Loc nD τ sig) → Buf (Elt Ideal) ℓ) (ρ : Dev nD → PrngReg) (c : Dev nD)

/-! ## Before the first region: the index vectors and the weights -/

/-- The source index of every edge (self-loops appended), at the first region's entry. -/
theorem row_3 : W3 m ρ c (Proc.devRef .tc main_v3) = val_main_v3 (F := Ideal) (m ((c : Thread nD τ).loc main_arg1)) :=
  HostNorm.row (W0 m ρ c)

/-- The target index of every edge (self-loops appended), at the first region's entry. -/
theorem col_3 : W3 m ρ c (Proc.devRef .tc main_v6) = val_main_v6 (F := Ideal) (m ((c : Thread nD τ).loc main_arg1)) :=
  HostNorm.col (W0 m ρ c)

/-- The symmetric normalisation weight of every edge, at the first region's entry. -/
theorem norm_3 : W3 m ρ c (Proc.devRef .tc main_v31) = val_main_v31 (F := Ideal) (m ((c : Thread nD τ).loc main_arg1)) (m ((c : Thread nD τ).loc main_arg2)) :=
  HostNorm.norm (W0 m ρ c)

/-! ## The first convolution -/

/-- Region 0 leaves the product of the features with the first weight matrix. -/
theorem product_4 : W4 m ρ c (Proc.devRef .tc main_v32) = val_main_v32 (F := Ideal) (m ((c : Thread nD τ).loc main_arg0)) (m ((c : Thread nD τ).loc main_arg3)) := by
  refine (W4_arr m ρ c 2).trans ((RegionProduct.product0 (V3 m ρ) c).trans ?_)
  rw [show V3 m ρ c main_arg0 = _ from Kept.arg0_3 m ρ c, show V3 m ρ c main_arg3 = _ from Kept.arg3_3 m ρ c]
  rfl

/-- The product's rows gathered at the source indices, at region 1's entry. -/
theorem gathered_5 : W5 m ρ c (Proc.devRef .tc main_v39) = val_main_v40 (F := Ideal) (m ((c : Thread nD τ).loc main_arg0)) (m ((c : Thread nD τ).loc main_arg1)) (m ((c : Thread nD τ).loc main_arg3)) :=
  HostNorm.gathered (W4 m ρ c) _ _ _ (product_4 m ρ c) ((Kept.row_4 m ρ c).trans (row_3 m ρ c))

/-- The weights as a column, at region 1's entry. -/
theorem column_5 : W5 m ρ c (Proc.devRef .tc main_v40) = val_main_v33 (F := Ideal) (m ((c : Thread nD τ).loc main_arg1)) (m ((c : Thread nD τ).loc main_arg2)) :=
  HostNorm.column (W4 m ρ c) _ _ ((Kept.norm_4 m ρ c).trans (norm_3 m ρ c))

/-- Region 1 leaves every gathered row times its weight. -/
theorem scaled_6 : W6 m ρ c (Proc.devRef .tc main_v41) = val_main_v42 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((RegionScale.scaled1 (V5 m ρ) c).trans ?_)
  rw [show V5 m ρ c main_v40 = _ from column_5 m ρ c, show V5 m ρ c main_v39 = _ from gathered_5 m ρ c]
  rfl

/-- The scaled rows summed at the target indices, plus the bias, rectified: the hidden features, at region 2's entry. -/
theorem hidden_8 : W8 m ρ c (Proc.devRef .tc main_v48) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  HostConv.hidden (W6 m ρ c) _ _ _ _ _ (scaled_6 m ρ c) ((Kept.col_6 m ρ c).trans (col_3 m ρ c)) (Kept.arg4_6 m ρ c)

/-! ## The second convolution: the mean head -/

theorem product_9 : W9 m ρ c (Proc.devRef .tc main_v49) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((RegionProduct.product2 (V8 m ρ) c).trans ?_)
  rw [show V8 m ρ c main_v48 = _ from hidden_8 m ρ c, show V8 m ρ c main_arg5 = _ from Kept.arg5_8 m ρ c]
  rfl

theorem gathered_10 : W10 m ρ c (Proc.devRef .tc main_v56) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  HostConv.gathered_mu (W9 m ρ c) _ _ _ _ _ _ (product_9 m ρ c) ((Kept.row_9 m ρ c).trans (row_3 m ρ c))

theorem column_10 : W10 m ρ c (Proc.devRef .tc main_v57) = val_main_v51 (F := Ideal) (m ((c : Thread nD τ).loc main_arg1)) (m ((c : Thread nD τ).loc main_arg2)) :=
  HostConv.column_mu (W9 m ρ c) _ _ ((Kept.norm_9 m ρ c).trans (norm_3 m ρ c))

theorem scaled_11 : W11 m ρ c (Proc.devRef .tc main_v58) = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W11_arr m ρ c 2).trans ((RegionScale.scaled3 (V10 m ρ) c).trans ?_)
  rw [show V10 m ρ c main_v57 = _ from column_10 m ρ c, show V10 m ρ c main_v56 = _ from gathered_10 m ρ c]
  rfl

/-- The first result, where it is written. -/
theorem mean_12 : W12 m ρ c (Proc.devRef .tc main_v64) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  HostConv.mu (W11 m ρ c) _ _ _ _ _ _ _ (scaled_11 m ρ c) ((Kept.col_11 m ρ c).trans (col_3 m ρ c)) (Kept.arg6_11 m ρ c)

/-! ## The third convolution: the log-variance head -/

theorem product_13 : W13 m ρ c (Proc.devRef .tc main_v65) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (W13_arr m ρ c 2).trans ((RegionProduct.product4 (V12 m ρ) c).trans ?_)
  rw [show V12 m ρ c main_v48 = _ from (Kept.hidden_12 m ρ c).trans (hidden_8 m ρ c),
    show V12 m ρ c main_arg7 = _ from Kept.arg7_12 m ρ c]
  rfl

theorem gathered_14 : W14 m ρ c (Proc.devRef .tc main_v72) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  HostConv.gathered_lv (W13 m ρ c) _ _ _ _ _ _ (product_13 m ρ c) ((Kept.row_13 m ρ c).trans (row_3 m ρ c))

theorem column_14 : W14 m ρ c (Proc.devRef .tc main_v73) = val_main_v68 (F := Ideal) (m ((c : Thread nD τ).loc main_arg1)) (m ((c : Thread nD τ).loc main_arg2)) :=
  HostConv.column_lv (W13 m ρ c) _ _ ((Kept.norm_13 m ρ c).trans (norm_3 m ρ c))

theorem scaled_15 : W15 m ρ c (Proc.devRef .tc main_v74) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (W15_arr m ρ c 2).trans ((RegionScale.scaled5 (V14 m ρ) c).trans ?_)
  rw [show V14 m ρ c main_v73 = _ from column_14 m ρ c, show V14 m ρ c main_v72 = _ from gathered_14 m ρ c]
  rfl

/-! ## The two results at the last boundary -/

/-- The mean head: written after the fourth region, untouched afterwards. -/
theorem mean : W16 m ρ c (Proc.devRef .tc main_v64) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (Kept.mu_16 m ρ c).trans (mean_12 m ρ c)

/-- The log-variance head. -/
theorem logvar : W16 m ρ c (Proc.devRef .tc main_v80) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) :=
  HostConv.logvar (W15 m ρ c) _ _ _ _ _ _ _ (scaled_15 m ρ c) ((Kept.col_15 m ρ c).trans (col_3 m ρ c)) (Kept.arg8_15 m ρ c)

end Cert.KernelIdeal.Boundaries

end
-- ==== Proof.lean ====
/-
  A two-layer graph convolution with a mean head and a log-variance head: the tiled kernel program against the plain
  array program, over the extended reals.

  Both programs first append a self-loop to every node, sum the edge weights at each target node, and weigh every edge
  by the inverse square roots of the sums at its two ends; these operations are the same on both sides. Each of the three
  convolutions then multiplies the node features by a weight matrix, gathers the product's rows at the edges' source
  nodes, multiplies every gathered row by its edge's weight, sums the scaled rows at the edges' target nodes and adds a
  bias row; the first convolution is followed by a rectifier, and the other two read its result. The kernel program
  computes each product in twenty blocks of 5000 rows, accumulating into a zero block, and each scaling in 170 blocks
  of 10000 rows; the reference computes whole arrays. Over the extended reals a block of rows of the product is that
  block of rows of the whole product, the blocks tile the rows, and row-times-weight against weight-times-row is
  commutativity of the product, which holds at the infinities too: no entry needs to be finite, and the precondition is
  never opened. A change of float format is the identity there, so the narrowing of the matrix operands plays no part.

  The three frames: the two kernel programs' are the frames of their six regions chained through the host operations;
  the reference has no region, and its frame is its run with the results dropped. The idealisation rewrote no
  operation, so there is nothing to preserve beyond the text itself.
-/
import proofs.«155272_j27771258536172_1_alg».proof.Defs
import proofs.«155272_j27771258536172_1_alg».proof.Proof.Gen.Kernel
import proofs.«155272_j27771258536172_1_alg».proof.Proof.Gen.Kernel.Skeleton
import proofs.«155272_j27771258536172_1_alg».proof.Proof.Gen.Kernel.Launch
import proofs.«155272_j27771258536172_1_alg».proof.Proof.Gen.Kernel.Points
import proofs.«155272_j27771258536172_1_alg».proof.Proof.Gen.Kernel.Frame
import proofs.«155272_j27771258536172_1_alg».proof.Proof.Gen.KernelIdeal
import proofs.«155272_j27771258536172_1_alg».proof.Proof.Gen.KernelIdeal.Skeleton
import proofs.«155272_j27771258536172_1_alg».proof.Proof.Gen.KernelIdeal.Launch
import proofs.«155272_j27771258536172_1_alg».proof.Proof.Gen.KernelIdeal.Points
import proofs.«155272_j27771258536172_1_alg».proof.Proof.Gen.KernelIdeal.Frame
import proofs.«155272_j27771258536172_1_alg».proof.Proof.Gen.ReferenceIdeal
import proofs.«155272_j27771258536172_1_alg».proof.Proof.Gen.Pre_finite_inputs
import proofs.«155272_j27771258536172_1_alg».proof.Proof.Gen.ReferenceIdeal.Run
import proofs.«155272_j27771258536172_1_alg».proof.Proof.Gen.ReferenceIdeal.Read
import proofs.«155272_j27771258536172_1_alg».proof.Proof.RunNamed
import proofs.«155272_j27771258536172_1_alg».proof.Proof.Boundaries
import Idealize.ShloMosaic.Adequacy
import Idealize.ShloMosaic.Init

noncomputable section

namespace Cert.Proof

open Idealize.ShloMosaic Idealize.SL.Sem

/-- The word-level program runs, faults nowhere and leaves its arguments as launched. -/
theorem frame_kernel : Cert.frame_Kernel := fun m ρ _ => Cert.Kernel.Gen.frame m ρ

/-- So does the program read over the extended reals. -/
theorem frame_ideal : Cert.frame_KernelIdeal := fun m ρ _ => Cert.KernelIdeal.Gen.frame m ρ

/-- The reference is a line of host operations: its run, with the two results dropped from the post. -/
theorem frame_reference : Cert.frame_ReferenceIdeal := fun m ρ _ =>
  (θ_run Cert.ReferenceIdeal.defs _ _).mono (fun _ h c => (h c).2.2) (Cert.ReferenceIdeal.Value.run (F := Ideal) m ρ)

/-- Over the extended reals both programs end with the mean head and the log-variance head of one two-layer graph
    convolution of the arguments: the kernel program's results are read at its last boundary, the reference's are its
    run's composed terms, and from memories that agree on the arguments the two are the same stage functions of the same
    arrays. -/
theorem algebraic : Cert.algebraic_KernelIdeal_ReferenceIdeal := by
  intro m ρ m' ρ' _ hagree
  refine ⟨fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Boundaries.mean m ρ c),
        (h c).2.1.trans (Cert.KernelIdeal.Boundaries.logvar m ρ c), (h c).2.2⟩)
      (Cert.KernelIdeal.RunNamed.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v66_eq, (hagree c).1, (hagree c).2.1, (hagree c).2.2.1, (hagree c).2.2.2.1,
        (hagree c).2.2.2.2.1, (hagree c).2.2.2.2.2.1, (hagree c).2.2.2.2.2.2.1]
    · rw [Cert.ReferenceIdeal.Read.val_main_v83_eq, (hagree c).1, (hagree c).2.1, (hagree c).2.2.1, (hagree c).2.2.2.1,
        (hagree c).2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
